-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part5 {F : FTy → Type} [FloatOps F] (main_arg18 : FVec F S1024 .f32) (main_v83 : IVec S_ 1) (main_v84 : FVec F S1024x1024 .f32) (main_cst_32 : FVec F S_ .f32) : IVec S_ 1 :=
  let main_v85 : FVec F S1024x1024 .f32 := broadcastInDim S1024x1024 ![] bcast_S_S1024x1024 main_cst_32
  let main_v86 : IVec S1024x1024 1 := cmpf .olt main_v84 main_v85
  let main_c_33 : IVec S_ 1 := constantI S_ 1 1#1
  let main_v87 : IVec S_ 1 := (fun x v => Host.reduce IntOp.andi x v reducesTo_S1024x1024_S_d0_1 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  main_v93

def fn_part4 {F : FTy → Type} [FloatOps F] (main_arg14 : FVec F S1024 .f32) (main_arg15 : FVec F S1024x1024 .f32) (main_arg16 : FVec F S1024 .f32) (main_arg17 : FVec F S1024x1024 .f32) (main_arg18 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024x1024 .f32 := Host.absf main_arg15
  let main_cst_28 : FVec F S_ .f32 := constant S_ .f32 0x7F800000#32
  let main_v75 : FVec F S1024x1024 .f32 := broadcastInDim S1024x1024 ![] bcast_S_S1024x1024 main_cst_28
  let main_v76 : IVec S1024x1024 1 := cmpf .olt main_v74 main_v75
  let main_c_29 : IVec S_ 1 := constantI S_ 1 1#1
  let main_v77 : IVec S_ 1 := (fun x v => Host.reduce IntOp.andi x v reducesTo_S1024x1024_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024x1024 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_arg15 main_arg16 main_arg17 main_arg18 main_v63 main_v67

def fn_part2 {F : FTy → Type} [FloatOps F] (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_arg17 main_arg18 main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S4096x1024 .f32) (main_arg1 : FVec F S4096x1024 .f32) (main_arg2 : FVec F S4096x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S4096 : Shape := ⟨1, ![4096]⟩
abbrev S1x4096 : Shape := ⟨2, ![1, 4096]⟩
abbrev S256x1024 : Shape := ⟨2, ![256, 1024]⟩
abbrev S256x4096 : Shape := ⟨2, ![256, 4096]⟩

abbrev nBuf : Space → Nat
  | .hbm => 29
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S4096x1024, .f32⟩
  | .hbm, ⟨20, _⟩ => ⟨S4096x1024, .bf16⟩
  | .hbm, ⟨21, _⟩ => ⟨S4096x1024, .f32⟩
  | .hbm, ⟨22, _⟩ => ⟨S4096x1024, .bf16⟩
  | .hbm, ⟨23, _⟩ => ⟨S4096, .f32⟩
  | .hbm, ⟨24, _⟩ => ⟨S4096, .f32⟩
  | .hbm, ⟨25, _⟩ => ⟨S4096, .f32⟩
  | .hbm, ⟨26, _⟩ => ⟨S1x4096, .f32⟩
  | .hbm, ⟨27, _⟩ => ⟨S4096x1024, .f32⟩
  | .hbm, ⟨28, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S4096x1024, .bf16⟩
  | .local _ .vmem, ⟨7, _⟩ => ⟨S4096x1024, .bf16⟩
  | .local _ .vmem, ⟨8, _⟩ => ⟨S1x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8_0 : Ref sig .tc := ⟨.hbm, 27, rfl⟩
abbrev main_v8_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S1024x1024_S1024x1024_S1024x1024_S1024x1024_S4096x1024_d0 : Shape.Concatenates [S1024x1024, S1024x1024, S1024x1024, S1024x1024] S4096x1024 0
  bitsLt_bf16_f32 : FTy.bits .bf16 < FTy.bits .f32
  concatenates_S1024_S1024_S1024_S1024_S4096_d0 : Shape.Concatenates [S1024, S1024, S1024, S1024] S4096 0
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S4096x1024_S256x4096_1_1_0_0_n_n_wf : DotDims.WF S256x1024 S4096x1024 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1024.size a ≤ S4096x1024.size a
  hwx0_4 : ∀ i : grid0.Coords, EltTy.bits .bf16 = 32 ∨ (Rect.block (s := S4096x1024) S4096x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S4096x1024.size a
  hwx0_6 : ∀ i : grid0.Coords, EltTy.bits .f32 = 32 ∨ (Rect.block (s := S4096x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S4096x1024.size a
  hwx0_7 : ∀ i : grid0.Coords, EltTy.bits .f32 = 32 ∨ (Rect.block (s := S4096x1024) S256x1024.size (cc0_transform_7 i) (hinb0_7 i)).WholeWords (EltTy.packing .f32)

variable [Facts₀]

def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S4096x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S4096 : Shape := ⟨1, ![4096]⟩
abbrev S1024x4096 : Shape := ⟨2, ![1024, 4096]⟩
abbrev S4096x4096 : Shape := ⟨2, ![4096, 4096]⟩
abbrev S1x4096 : Shape := ⟨2, ![1, 4096]⟩
abbrev S_ : Shape := ⟨0, ![]⟩

abbrev nBuf : Space → Nat
  | .hbm => 66
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S4096x1024, .f32⟩
  | .hbm, ⟨20, _⟩ => ⟨S4096x1024, .f32⟩
  | .hbm, ⟨21, _⟩ => ⟨S4096, .f32⟩
  | .hbm, ⟨22, _⟩ => ⟨S4096, .f32⟩
  | .hbm, ⟨23, _⟩ => ⟨S1024x4096, .f32⟩
  | .hbm, ⟨24, _⟩ => ⟨S4096x4096, .f32⟩
  | .hbm, ⟨25, _⟩ => ⟨S1024x4096, .f32⟩
  | .hbm, ⟨26, _⟩ => ⟨S4096x4096, .f32⟩
  | .hbm, ⟨27, _⟩ => ⟨S4096x4096, .f32⟩
  | .hbm, ⟨28, _⟩ => ⟨S4096, .f32⟩
  | .hbm, ⟨29, _⟩ => ⟨S1x4096, .f32⟩
  | .hbm, ⟨30, _⟩ => ⟨S4096x4096, .f32⟩
  | .hbm, ⟨31, _⟩ => ⟨S4096x4096, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst : Ref sig .tc := ⟨.hbm, 38, rfl⟩
abbrev main_v19 : Ref sig .tc := ⟨.hbm, 39, rfl⟩
abbrev main_v20 : Ref sig .tc := ⟨.hbm, 40, rfl⟩
abbrev main_cst_0 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_1 : Ref sig .tc := ⟨.hbm, 46, rfl⟩
abbrev main_v25 : Ref sig .tc := ⟨.hbm, 47, rfl⟩
abbrev main_v26 : Ref sig .tc := ⟨.hbm, 48, rfl⟩
abbrev main_cst_2 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_3 : Ref sig .tc := ⟨.hbm, 54, rfl⟩
abbrev main_v31 : Ref sig .tc := ⟨.hbm, 55, rfl⟩
abbrev main_v32 : Ref sig .tc := ⟨.hbm, 56, rfl⟩
abbrev main_cst_4 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩

abbrev nD : Nat := 1
abbrev τ : Topo := Topo.v7x

variable {F : FTy → Type} [FloatOps F]

class Facts₀ : Prop where
  concatenates_S1024x1024_S1024x1024_S1024x1024_S1024x1024_S4096x1024_d0 : Shape.Concatenates [S1024x1024, S1024x1024, S1024x1024, S1024x1024] S4096x1024 0
  concatenates_S1024_S1024_S1024_S1024_S4096_d0 : Shape.Concatenates [S1024, S1024, S1024, S1024] S4096 0
  transposes_S4096x1024_S1024x4096_1_0 : S4096x1024.Transposes [1, 0] S1024x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S_S4096x1024 : S_.BroadcastsInDim S4096x1024 (![] : Fin 0 → Fin S4096x1024.rank)
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.FrameK.lean ====
/-
  The frame of `Kernel`: every weakly fair execution of @main terminates without a fault and leaves the nineteen
  argument arrays as they were — and, beyond the frame, each of the two result arrays ends as the blocks the sixteen
  grid points wrote back.

  @main first runs eight host operations (the two weight matrices fused row-wise and narrowed, the two bias vectors
  fused, added and laid out as one row), none of which writes an argument, and then one pipelined region over a grid
  of sixteen points. Point `t` is handed rows `256·t … 256·t+255` of the input, previous-hidden and previous-cell
  arrays, and — unchanged from point to point — the whole fused weight matrices and the bias row; the body loads the six
  blocks whole, computes, and stores the new hidden and the new cell block whole. So what each output's staging
  buffer holds after the body is a function of the six input blocks alone (`outH`, `outC`: the body's two stored
  values), which is all the pipeline's run needs to be told.
-/
import proofs.«108249_j188978561241_1_alg».proof.Proof.Gen.Kernel.Launch
import proofs.«108249_j188978561241_1_alg».proof.Proof.Gen.Kernel.Skeleton
import proofs.«108249_j188978561241_1_alg».proof.Proof.Gen.Kernel.Points
import Idealize.ShloMosaic.Lib.Pipeline.FrameBody
import Idealize.ShloMosaic.Lib.Ring
import Idealize.ShloMosaic.Lib.Tactic

-- membership in a rectangle of these extents is decided structurally, one step per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the eight host operations. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that is none of the eight the host operations write is found by the region as launched. -/
theorem V_of_not_written (c : Dev nD) (b : Ref sig .tc) (h0 : b ≠ main_v0) (h1 : b ≠ main_v1) (h2 : b ≠ main_v2) (h3 : b ≠ main_v3) (h4 : b ≠ main_v4) (h5 : b ≠ main_v5) (h6 : b ≠ main_v6) (h7 : b ≠ main_v7) :
    V m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.binary_writes,
      StableHlo.reshape_writes, Finset.mem_singleton]
    exact ⟨StableHlo.devRef_ne_of_ne h0, StableHlo.devRef_ne_of_ne h1, StableHlo.devRef_ne_of_ne h2, StableHlo.devRef_ne_of_ne h3, StableHlo.devRef_ne_of_ne h4, StableHlo.devRef_ne_of_ne h5, StableHlo.devRef_ne_of_ne h6, StableHlo.devRef_ne_of_ne h7⟩))

theorem V_main_arg0 (c : Dev nD) : V m c main_arg0 = m ((c : Thread nD τ).loc main_arg0) :=
  V_of_not_written m c main_arg0 (by decide) (by decide) (by decide) (by decide) (by decide) (by decide) (by decide) (by decide)
theorem V_main_arg1 (c : Dev nD) : V m c main_arg1 = m ((c : Thread nD τ).loc main_arg1) :=
  V_of_not_written m c main_arg1 (by decide) (by decide) (by decide) (by decide) (by decide) (by decide) (by decide) (by decide)
theorem V_main_arg2 (c : Dev nD) : V m c main_arg2 = m ((c : Thread nD τ).loc main_arg2) :=
  V_of_not_written m c main_arg2 (by decide) (by decide) (by decide) (by decide) (by decide) (by decide) (by decide) (by decide)
theorem V_main_arg3 (c : Dev nD) : V m c main_arg3 = m ((c : Thread nD τ).loc main_arg3) :=
  V_of_not_written m c main_arg3 (by decide) (by decide) (by decide) (by decide) (by decide) (by decide) (by decide) (by decide)
theorem V_main_arg4 (c : Dev nD) : V m c main_arg4 = m ((c : Thread nD τ).loc main_arg4) :=
  V_of_not_written m c main_arg4 (by decide) (by decide) (by decide) (by decide) (by decide) (by decide) (by decide) (by decide)
theorem V_main_arg5 (c : Dev nD) : V m c main_arg5 = m ((c : Thread nD τ).loc main_arg5) :=
  V_of_not_written m c main_arg5 (by decide) (by decide) (by decide) (by decide) (by decide) (by decide) (by decide) (by decide)
theorem V_main_arg6 (c : Dev nD) : V m c main_arg6 = m ((c : Thread nD τ).loc main_arg6) :=
  V_of_not_written m c main_arg6 (by decide) (by decide) (by decide) (by decide) (by decide) (by decide) (by decide) (by decide)
theorem V_main_arg7 (c : Dev nD) : V m c main_arg7 = m ((c : Thread nD τ).loc main_arg7) :=
  V_of_not_written m c main_arg7 (by decide) (by decide) (by decide) (by decide) (by decide) (by decide) (by decide) (by decide)
theorem V_main_arg8 (c : Dev nD) : V m c main_arg8 = m ((c : Thread nD τ).loc main_arg8) :=
  V_of_not_written m c main_arg8 (by decide) (by decide) (by decide) (by decide) (by decide) (by decide) (by decide) (by decide)
theorem V_main_arg9 (c : Dev nD) : V m c main_arg9 = m ((c : Thread nD τ).loc main_arg9) :=
  V_of_not_written m c main_arg9 (by decide) (by decide) (by decide) (by decide) (by decide) (by decide) (by decide) (by decide)
theorem V_main_arg10 (c : Dev nD) : V m c main_arg10 = m ((c : Thread nD τ).loc main_arg10) :=
  V_of_not_written m c main_arg10 (by decide) (by decide) (by decide) (by decide) (by decide) (by decide) (by decide) (by decide)
theorem V_main_arg11 (c : Dev nD) : V m c main_arg11 = m ((c : Thread nD τ).loc main_arg11) :=
  V_of_not_written m c main_arg11 (by decide) (by decide) (by decide) (by decide) (by decide) (by decide) (by decide) (by decide)
theorem V_main_arg12 (c : Dev nD) : V m c main_arg12 = m ((c : Thread nD τ).loc main_arg12) :=
  V_of_not_written m c main_arg12 (by decide) (by decide) (by decide) (by decide) (by decide) (by decide) (by decide) (by decide)
theorem V_main_arg13 (c : Dev nD) : V m c main_arg13 = m ((c : Thread nD τ).loc main_arg13) :=
  V_of_not_written m c main_arg13 (by decide) (by decide) (by decide) (by decide) (by decide) (by decide) (by decide) (by decide)
theorem V_main_arg14 (c : Dev nD) : V m c main_arg14 = m ((c : Thread nD τ).loc main_arg14) :=
  V_of_not_written m c main_arg14 (by decide) (by decide) (by decide) (by decide) (by decide) (by decide) (by decide) (by decide)
theorem V_main_arg15 (c : Dev nD) : V m c main_arg15 = m ((c : Thread nD τ).loc main_arg15) :=
  V_of_not_written m c main_arg15 (by decide) (by decide) (by decide) (by decide) (by decide) (by decide) (by decide) (by decide)
theorem V_main_arg16 (c : Dev nD) : V m c main_arg16 = m ((c : Thread nD τ).loc main_arg16) :=
  V_of_not_written m c main_arg16 (by decide) (by decide) (by decide) (by decide) (by decide) (by decide) (by decide) (by decide)
theorem V_main_arg17 (c : Dev nD) : V m c main_arg17 = m ((c : Thread nD τ).loc main_arg17) :=
  V_of_not_written m c main_arg17 (by decide) (by decide) (by decide) (by decide) (by decide) (by decide) (by decide) (by decide)
theorem V_main_arg18 (c : Dev nD) : V m c main_arg18 = m ((c : Thread nD τ).loc main_arg18) :=
  V_of_not_written m c main_arg18 (by decide) (by decide) (by decide) (by decide) (by decide) (by decide) (by decide) (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the pipeline fetched it there or
    kept it (then the block's position has not moved), for any proof data over `V` whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether the pipeline fetched it there or
    kept it (then the block's position has not moved), for any proof data over `V` whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether the pipeline fetched it there or
    kept it (then the block's position has not moved), for any proof data over `V` whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether the pipeline fetched it there or
    kept it (then the block's position has not moved), for any proof data over `V` whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether the pipeline fetched it there or
    kept it (then the block's position has not moved), for any proof data over `V` whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, whether the pipeline fetched it there or
    kept it (then the block's position has not moved), for any proof data over `V` whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the pipeline run's -/

/-- For any proof data over `V`, a run to the pipeline's post — every staged array at what the proof data computes,
    every other unscoped buffer as the region found it — leaves the nineteen argument arrays as launched: the three
    staged ones are inputs, which the pipeline only reads; the sixteen others no window stages. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) h

/-! ## The body's accesses -/

/-- The whole of a 256-row block, of a fused weight matrix, of the bias row. -/
abbrev rA : Rect S256x1024 := Rect.unit (s := S256x1024) ![0, 0] S256x1024.size inb_S256x1024_S256x1024_0_0
abbrev rW : Rect S4096x1024 := Rect.unit (s := S4096x1024) ![0, 0] S4096x1024.size inb_S4096x1024_S4096x1024_0_0
abbrev rB : Rect S1x4096 := Rect.unit (s := S1x4096) ![0, 0] S1x4096.size inb_S1x4096_S1x4096_0_0

/-! ## What the body leaves in each output window's buffer -/

/-- The new hidden block, from the six input blocks: the one whole-block store into window 6. -/
def outH (x0 x1 x2 : Vec F S256x1024 .f32) (x3 x4 : Vec F S4096x1024 .bf16) (x5 : Vec F S1x4096 .f32) : Vec F S256x1024 .f32 :=
  View.canon [⟨rA, k0_pay3 (View.ld x0 rA) (View.ld x1 rA) (View.ld x3 rW) (View.ld x4 rW) (View.ld x5 rB) (View.ld x2 rA)⟩]
/-- The new cell block, from the six input blocks: the one whole-block store into window 7. -/
def outC (x0 x1 x2 : Vec F S256x1024 .f32) (x3 x4 : Vec F S4096x1024 .bf16) (x5 : Vec F S1x4096 .f32) : Vec F S256x1024 .f32 :=
  View.canon [⟨rA, k0_pay2 (View.ld x0 rA) (View.ld x1 rA) (View.ld x3 rW) (View.ld x4 rW) (View.ld x5 rB) (View.ld x2 rA)⟩]

/-- One whole-block store covers the block. -/
theorem coverA (p0 : Vec F S256x1024 .f32) (y : S256x1024.Idx) :
    ∃ pc ∈ ([⟨rA, p0⟩] : List (View.Piece (Elt F) S256x1024 .f32)), y ∈ pc.1.set :=
  View.cover_of_tiled [⟨rA, p0⟩] S256x1024.size (by rfl) y

/-! ## The body's triple -/

set_option maxHeartbeats 1000000 in
/-- The body on whole staging buffers — the six inputs' at contents `xW`, the two outputs' at anything — runs to the
    continuation with the inputs' as they were and the outputs' at `outH`, `outC` of the inputs'. (The body also loads
    each output buffer before storing into it; the loaded values are not used.) -/
theorem sound_kernel (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S4096x1024 .bf16) (harg4 : arg4.IsWhole)
    (arg5 : Memref sig .tc .vmem S4096x1024 .bf16) (harg5 : arg5.IsWhole) (arg6 : Memref sig .tc .vmem S1x4096 .f32) (harg6 : arg6.IsWhole)
    (arg7 : Memref sig .tc .vmem S256x1024 .f32) (harg7 : arg7.IsWhole) (arg8 : Memref sig .tc .vmem S256x1024 .f32) (harg8 : arg8.IsWhole)
    (x0 x1 x2 : Vec F S256x1024 .f32) (x3 x4 : Vec F S4096x1024 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outH x0 x1 x2 x3 x4 x5) ∗ owns (c : Thread nD τ) arg8 fullShare (outC x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverA _)
  iexists _; isplitr
  swap; · iexact H7
  ipureintro
  exact View.read_writes_eq_canon _ _ _ (coverA _)

end Cert.Kernel.Fr

end
-- ==== Proof.RunK.lean ====
/-
  The pipeline's run of `Kernel`, from the body's triple: the proof data (what every window's staging buffer holds
  after the body at each of the sixteen points — an input's its block, left in place; the two outputs' the body's two
  stored values of the six input blocks), the body obligation at a generic point, the run to the pipeline's post,
  and the frame.
-/
import proofs.«108249_j188978561241_1_alg».proof.Proof.FrameK

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- On core `c`: the arrays as the region finds them; after the body at point `t` each input's buffer at its block and
    the two outputs' at the body's stored values of the six input blocks; the invariant the scoped rest and the
    random-number register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outH (iblk m c 0 t) (iblk m c 1 t) (iblk m c 2 t) (iblk m c 3 t) (iblk m c 4 t) (iblk m c 5 t)
    | ⟨7, _⟩ => outC (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents (projected, never unfolded). -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outH (iblk m c 0 t) (iblk m c 1 t) (iblk m c 2 t) (iblk m c 3 t) (iblk m c 4 t) (iblk m c 5 t) := by dsimp only [dats]
theorem after7 (c : Dev nD) (t : Fin cfg0.N) : (dats m 0 c).after 7 t = outC (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- From any memory with zero counters every weakly fair execution of @main terminates, every staged array ending at
    what the proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the nineteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.Kernel.Fr

end
-- ==== Proof.FrameKI.lean ====
/-
  The frame of `KernelIdeal`: every weakly fair execution of @main terminates without a fault and leaves the nineteen
  argument arrays as they were — and, beyond the frame, each of the two result arrays ends as the blocks the sixteen
  grid points wrote back.

  @main first runs eight host operations (the two weight matrices fused row-wise and narrowed, the two bias vectors
  fused, added and laid out as one row), none of which writes an argument, and then one pipelined region over a grid
  of sixteen points. Point `t` is handed rows `256·t … 256·t+255` of the input, previous-hidden and previous-cell
  arrays, and — unchanged from point to point — the whole fused weight matrices and the bias row; the body loads the six
  blocks whole, computes, and stores the new hidden and the new cell block whole. So what each output's staging
  buffer holds after the body is a function of the six input blocks alone (`outH`, `outC`: the body's two stored
  values), which is all the pipeline's run needs to be told.
-/
import proofs.«108249_j188978561241_1_alg».proof.Proof.Gen.KernelIdeal.Launch
import proofs.«108249_j188978561241_1_alg».proof.Proof.Gen.KernelIdeal.Skeleton
import proofs.«108249_j188978561241_1_alg».proof.Proof.Gen.KernelIdeal.Points
import Idealize.ShloMosaic.Lib.Pipeline.FrameBody
import Idealize.ShloMosaic.Lib.Ring
import Idealize.ShloMosaic.Lib.Tactic

-- membership in a rectangle of these extents is decided structurally, one step per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the eight host operations. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that is none of the eight the host operations write is found by the region as launched. -/
theorem V_of_not_written (c : Dev nD) (b : Ref sig .tc) (h0 : b ≠ main_v0) (h1 : b ≠ main_v1) (h2 : b ≠ main_v2) (h3 : b ≠ main_v3) (h4 : b ≠ main_v4) (h5 : b ≠ main_v5) (h6 : b ≠ main_v6) (h7 : b ≠ main_v7) :
    V m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.binary_writes,
      StableHlo.reshape_writes, Finset.mem_singleton]
    exact ⟨StableHlo.devRef_ne_of_ne h0, StableHlo.devRef_ne_of_ne h1, StableHlo.devRef_ne_of_ne h2, StableHlo.devRef_ne_of_ne h3, StableHlo.devRef_ne_of_ne h4, StableHlo.devRef_ne_of_ne h5, StableHlo.devRef_ne_of_ne h6, StableHlo.devRef_ne_of_ne h7⟩))

theorem V_main_arg0 (c : Dev nD) : V m c main_arg0 = m ((c : Thread nD τ).loc main_arg0) :=
  V_of_not_written m c main_arg0 (by decide) (by decide) (by decide) (by decide) (by decide) (by decide) (by decide) (by decide)
theorem V_main_arg1 (c : Dev nD) : V m c main_arg1 = m ((c : Thread nD τ).loc main_arg1) :=
  V_of_not_written m c main_arg1 (by decide) (by decide) (by decide) (by decide) (by decide) (by decide) (by decide) (by decide)
theorem V_main_arg2 (c : Dev nD) : V m c main_arg2 = m ((c : Thread nD τ).loc main_arg2) :=
  V_of_not_written m c main_arg2 (by decide) (by decide) (by decide) (by decide) (by decide) (by decide) (by decide) (by decide)
theorem V_main_arg3 (c : Dev nD) : V m c main_arg3 = m ((c : Thread nD τ).loc main_arg3) :=
  V_of_not_written m c main_arg3 (by decide) (by decide) (by decide) (by decide) (by decide) (by decide) (by decide) (by decide)
theorem V_main_arg4 (c : Dev nD) : V m c main_arg4 = m ((c : Thread nD τ).loc main_arg4) :=
  V_of_not_written m c main_arg4 (by decide) (by decide) (by decide) (by decide) (by decide) (by decide) (by decide) (by decide)
theorem V_main_arg5 (c : Dev nD) : V m c main_arg5 = m ((c : Thread nD τ).loc main_arg5) :=
  V_of_not_written m c main_arg5 (by decide) (by decide) (by decide) (by decide) (by decide) (by decide) (by decide) (by decide)
theorem V_main_arg6 (c : Dev nD) : V m c main_arg6 = m ((c : Thread nD τ).loc main_arg6) :=
  V_of_not_written m c main_arg6 (by decide) (by decide) (by decide) (by decide) (by decide) (by decide) (by decide) (by decide)
theorem V_main_arg7 (c : Dev nD) : V m c main_arg7 = m ((c : Thread nD τ).loc main_arg7) :=
  V_of_not_written m c main_arg7 (by decide) (by decide) (by decide) (by decide) (by decide) (by decide) (by decide) (by decide)
theorem V_main_arg8 (c : Dev nD) : V m c main_arg8 = m ((c : Thread nD τ).loc main_arg8) :=
  V_of_not_written m c main_arg8 (by decide) (by decide) (by decide) (by decide) (by decide) (by decide) (by decide) (by decide)
theorem V_main_arg9 (c : Dev nD) : V m c main_arg9 = m ((c : Thread nD τ).loc main_arg9) :=
  V_of_not_written m c main_arg9 (by decide) (by decide) (by decide) (by decide) (by decide) (by decide) (by decide) (by decide)
theorem V_main_arg10 (c : Dev nD) : V m c main_arg10 = m ((c : Thread nD τ).loc main_arg10) :=
  V_of_not_written m c main_arg10 (by decide) (by decide) (by decide) (by decide) (by decide) (by decide) (by decide) (by decide)
theorem V_main_arg11 (c : Dev nD) : V m c main_arg11 = m ((c : Thread nD τ).loc main_arg11) :=
  V_of_not_written m c main_arg11 (by decide) (by decide) (by decide) (by decide) (by decide) (by decide) (by decide) (by decide)
theorem V_main_arg12 (c : Dev nD) : V m c main_arg12 = m ((c : Thread nD τ).loc main_arg12) :=
  V_of_not_written m c main_arg12 (by decide) (by decide) (by decide) (by decide) (by decide) (by decide) (by decide) (by decide)
theorem V_main_arg13 (c : Dev nD) : V m c main_arg13 = m ((c : Thread nD τ).loc main_arg13) :=
  V_of_not_written m c main_arg13 (by decide) (by decide) (by decide) (by decide) (by decide) (by decide) (by decide) (by decide)
theorem V_main_arg14 (c : Dev nD) : V m c main_arg14 = m ((c : Thread nD τ).loc main_arg14) :=
  V_of_not_written m c main_arg14 (by decide) (by decide) (by decide) (by decide) (by decide) (by decide) (by decide) (by decide)
theorem V_main_arg15 (c : Dev nD) : V m c main_arg15 = m ((c : Thread nD τ).loc main_arg15) :=
  V_of_not_written m c main_arg15 (by decide) (by decide) (by decide) (by decide) (by decide) (by decide) (by decide) (by decide)
theorem V_main_arg16 (c : Dev nD) : V m c main_arg16 = m ((c : Thread nD τ).loc main_arg16) :=
  V_of_not_written m c main_arg16 (by decide) (by decide) (by decide) (by decide) (by decide) (by decide) (by decide) (by decide)
theorem V_main_arg17 (c : Dev nD) : V m c main_arg17 = m ((c : Thread nD τ).loc main_arg17) :=
  V_of_not_written m c main_arg17 (by decide) (by decide) (by decide) (by decide) (by decide) (by decide) (by decide) (by decide)
theorem V_main_arg18 (c : Dev nD) : V m c main_arg18 = m ((c : Thread nD τ).loc main_arg18) :=
  V_of_not_written m c main_arg18 (by decide) (by decide) (by decide) (by decide) (by decide) (by decide) (by decide) (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the pipeline fetched it there or
    kept it (then the block's position has not moved), for any proof data over `V` whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether the pipeline fetched it there or
    kept it (then the block's position has not moved), for any proof data over `V` whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether the pipeline fetched it there or
    kept it (then the block's position has not moved), for any proof data over `V` whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether the pipeline fetched it there or
    kept it (then the block's position has not moved), for any proof data over `V` whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether the pipeline fetched it there or
    kept it (then the block's position has not moved), for any proof data over `V` whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, whether the pipeline fetched it there or
    kept it (then the block's position has not moved), for any proof data over `V` whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the pipeline run's -/

/-- For any proof data over `V`, a run to the pipeline's post — every staged array at what the proof data computes,
    every other unscoped buffer as the region found it — leaves the nineteen argument arrays as launched: the three
    staged ones are inputs, which the pipeline only reads; the sixteen others no window stages. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) h

/-! ## The body's accesses -/

/-- The whole of a 256-row block, of a fused weight matrix, of the bias row. -/
abbrev rA : Rect S256x1024 := Rect.unit (s := S256x1024) ![0, 0] S256x1024.size inb_S256x1024_S256x1024_0_0
abbrev rW : Rect S4096x1024 := Rect.unit (s := S4096x1024) ![0, 0] S4096x1024.size inb_S4096x1024_S4096x1024_0_0
abbrev rB : Rect S1x4096 := Rect.unit (s := S1x4096) ![0, 0] S1x4096.size inb_S1x4096_S1x4096_0_0

/-! ## What the body leaves in each output window's buffer -/

/-- The new hidden block, from the six input blocks: the one whole-block store into window 6. -/
def outH (x0 x1 x2 : Vec F S256x1024 .f32) (x3 x4 : Vec F S4096x1024 .bf16) (x5 : Vec F S1x4096 .f32) : Vec F S256x1024 .f32 :=
  View.canon [⟨rA, k0_pay3 (View.ld x0 rA) (View.ld x1 rA) (View.ld x3 rW) (View.ld x4 rW) (View.ld x5 rB) (View.ld x2 rA)⟩]
/-- The new cell block, from the six input blocks: the one whole-block store into window 7. -/
def outC (x0 x1 x2 : Vec F S256x1024 .f32) (x3 x4 : Vec F S4096x1024 .bf16) (x5 : Vec F S1x4096 .f32) : Vec F S256x1024 .f32 :=
  View.canon [⟨rA, k0_pay2 (View.ld x0 rA) (View.ld x1 rA) (View.ld x3 rW) (View.ld x4 rW) (View.ld x5 rB) (View.ld x2 rA)⟩]

/-- One whole-block store covers the block. -/
theorem coverA (p0 : Vec F S256x1024 .f32) (y : S256x1024.Idx) :
    ∃ pc ∈ ([⟨rA, p0⟩] : List (View.Piece (Elt F) S256x1024 .f32)), y ∈ pc.1.set :=
  View.cover_of_tiled [⟨rA, p0⟩] S256x1024.size (by rfl) y

/-! ## The body's triple -/

set_option maxHeartbeats 1000000 in
/-- The body on whole staging buffers — the six inputs' at contents `xW`, the two outputs' at anything — runs to the
    continuation with the inputs' as they were and the outputs' at `outH`, `outC` of the inputs'. (The body also loads
    each output buffer before storing into it; the loaded values are not used.) -/
theorem sound_kernel (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S4096x1024 .bf16) (harg4 : arg4.IsWhole)
    (arg5 : Memref sig .tc .vmem S4096x1024 .bf16) (harg5 : arg5.IsWhole) (arg6 : Memref sig .tc .vmem S1x4096 .f32) (harg6 : arg6.IsWhole)
    (arg7 : Memref sig .tc .vmem S256x1024 .f32) (harg7 : arg7.IsWhole) (arg8 : Memref sig .tc .vmem S256x1024 .f32) (harg8 : arg8.IsWhole)
    (x0 x1 x2 : Vec F S256x1024 .f32) (x3 x4 : Vec F S4096x1024 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outH x0 x1 x2 x3 x4 x5) ∗ owns (c : Thread nD τ) arg8 fullShare (outC x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverA _)
  iexists _; isplitr
  swap; · iexact H7
  ipureintro
  exact View.read_writes_eq_canon _ _ _ (coverA _)

end Cert.KernelIdeal.Fr

end
-- ==== Proof.RunKI.lean ====
/-
  The pipeline's run of `KernelIdeal`, from the body's triple: the proof data (what every window's staging buffer holds
  after the body at each of the sixteen points — an input's its block, left in place; the two outputs' the body's two
  stored values of the six input blocks), the body obligation at a generic point, the run to the pipeline's post,
  and the frame.
-/
import proofs.«108249_j188978561241_1_alg».proof.Proof.FrameKI

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- On core `c`: the arrays as the region finds them; after the body at point `t` each input's buffer at its block and
    the two outputs' at the body's stored values of the six input blocks; the invariant the scoped rest and the
    random-number register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outH (iblk m c 0 t) (iblk m c 1 t) (iblk m c 2 t) (iblk m c 3 t) (iblk m c 4 t) (iblk m c 5 t)
    | ⟨7, _⟩ => outC (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents (projected, never unfolded). -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outH (iblk m c 0 t) (iblk m c 1 t) (iblk m c 2 t) (iblk m c 3 t) (iblk m c 4 t) (iblk m c 5 t) := by dsimp only [dats]
theorem after7 (c : Dev nD) (t : Fin cfg0.N) : (dats m 0 c).after 7 t = outC (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- From any memory with zero counters every weakly fair execution of @main terminates, every staged array ending at
    what the proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the nineteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.KernelIdeal.Fr

end
-- ==== Proof.Spec.lean ====
/-
  One step of an LSTM cell, stated for ONE batch row on the extended reals.

  A batch row enters as its input vector `xr` and its previous hidden vector `hr` (1024 entries each) and, per
  hidden unit `j`, its previous cell value `cp`. The four gates' weights are fused: row `n` of `Wx` and of `Wh`
  (4096 rows of 1024 entries) belongs to the input gate for `n < 1024`, to the forget gate for `1024 ≤ n < 2048`, to
  the output gate for `2048 ≤ n < 3072` and to the candidate for `3072 ≤ n`; `b` is the sum of the two fused bias vectors.

    pre n   = (Σ_q xr q · Wx n q  +  Σ_q hr q · Wh n q)  +  b n
    newC j  = σ(pre (1024 + j)) · cp  +  σ(pre j) · tanh(pre (3072 + j))
    newH j  = σ(pre (2048 + j)) · tanh(newC j)

  with σ x = 1 / (1 + e^(−x)). Nothing here mentions a shape: a row of a 256-row block and a row of the 4096-row
  array are described by the same functions, which is what lets the tiled computation be compared with the whole one.
-/
import Idealize.ShloMosaic.PureOps.Ideal

noncomputable section

open scoped BigOperators

namespace Cert.Lstm

open Idealize.ShloMosaic

/-- Column `j` of the input gate's quarter of the fused 4096 columns. -/
def colI (j : Fin 1024) : Fin 4096 := ⟨j.val, by omega⟩
/-- Column `j` of the forget gate's quarter. -/
def colF (j : Fin 1024) : Fin 4096 := ⟨1024 + j.val, by omega⟩
/-- Column `j` of the output gate's quarter. -/
def colO (j : Fin 1024) : Fin 4096 := ⟨2048 + j.val, by omega⟩
/-- Column `j` of the candidate's quarter. -/
def colG (j : Fin 1024) : Fin 4096 := ⟨3072 + j.val, by omega⟩

/-- The pre-activation of fused column `n` for one batch row: the two contractions added, then the bias. -/
def pre (xr hr : Fin 1024 → EReal) (Wx Wh : Fin 4096 → Fin 1024 → EReal) (b : Fin 4096 → EReal) (n : Fin 4096) : EReal :=
  ((∑ q : Fin 1024, xr q * Wx n q) + (∑ q : Fin 1024, hr q * Wh n q)) + b n

/-- The new cell value of hidden unit `j`: forget gate times the previous cell value plus input gate times candidate. -/
def newC (xr hr : Fin 1024 → EReal) (cp : EReal) (Wx Wh : Fin 4096 → Fin 1024 → EReal) (b : Fin 4096 → EReal) (j : Fin 1024) : EReal :=
  Ideal.logistic (pre xr hr Wx Wh b (colF j)) * cp
    + Ideal.logistic (pre xr hr Wx Wh b (colI j)) * Ideal.tanh (pre xr hr Wx Wh b (colG j))

/-- The new hidden value of hidden unit `j`: output gate times tanh of the new cell value. -/
def newH (xr hr : Fin 1024 → EReal) (cp : EReal) (Wx Wh : Fin 4096 → Fin 1024 → EReal) (b : Fin 4096 → EReal) (j : Fin 1024) : EReal :=
  Ideal.logistic (pre xr hr Wx Wh b (colO j)) * Ideal.tanh (newC xr hr cp Wx Wh b j)

end Cert.Lstm

end
-- ==== Proof.Payload.lean ====
/-
  The arithmetic of one block of the LSTM step, read at an entry.

  The block's pre-activations are two products of a [256,1024] block of activations with the transpose of a [4096,1024]
  block of fused weights, each accumulated onto zero, added, plus the bias row repeated down the rows. At entry (p, n)
  that is  (Σ_q x(p,q)·Wx(n,q) + Σ_q h(p,q)·Wh(n,q)) + b(n):  the specification's `pre` of row p at fused column n.
  The four gates are the column quarters of that block: columns j, 1024 + j, 2048 + j, 3072 + j for hidden unit j. The
  new cell block is  σ(forget)·c_prev + σ(input)·tanh(candidate)  entry by entry and the new hidden block is
  σ(output)·tanh(new cell): the specification's `newC` and `newH`. On the extended reals a change of number format is the
  identity, so nothing else happens to an entry.
-/
import proofs.«108249_j188978561241_1_alg».proof.Proof.Gen.KernelIdeal.Skeleton
import proofs.«108249_j188978561241_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.TcCoe Idealize.ShloMosaic.ValueIdx

/-! ## The contraction at an index -/

/-- On its row axis the left operand of the contraction is read at the output's row. -/
theorem dot_lhs_row (i : S256x4096.Idx) (q : dot_S256x1024_S4096x1024_S256x4096_1_1_0_0_n_n.contr.Idx) :
    (dot_S256x1024_S4096x1024_S256x4096_1_1_0_0_n_n.lhsIdx i q 0).val = (i 0).val := by
  unfold DotDims.lhsIdx
  rw [dif_neg (show ¬(0 : Fin S256x1024.rank) ∈ dot_S256x1024_S4096x1024_S256x4096_1_1_0_0_n_n.lhsBatch by decide), dif_pos (show (0 : Fin S256x1024.rank) ∈ dot_S256x1024_S4096x1024_S256x4096_1_1_0_0_n_n.lhsNonContracting by decide)]
  rfl

/-- On its contracted axis the left operand is read at the contraction position. -/
theorem dot_lhs_col (i : S256x4096.Idx) (q : dot_S256x1024_S4096x1024_S256x4096_1_1_0_0_n_n.contr.Idx) :
    (dot_S256x1024_S4096x1024_S256x4096_1_1_0_0_n_n.lhsIdx i q 1).val = (q ⟨0, by decide⟩).val :=
  dot_S256x1024_S4096x1024_S256x4096_1_1_0_0_n_n.lhsIdx_val_of_single rfl i q

/-- On its row axis the right operand (weights, one row per fused column) is read at the output's column. -/
theorem dot_rhs_row (i : S256x4096.Idx) (q : dot_S256x1024_S4096x1024_S256x4096_1_1_0_0_n_n.contr.Idx) :
    (dot_S256x1024_S4096x1024_S256x4096_1_1_0_0_n_n.rhsIdx i q 0).val = (i 1).val := by
  unfold DotDims.rhsIdx
  rw [dif_neg (show ¬(0 : Fin S4096x1024.rank) ∈ dot_S256x1024_S4096x1024_S256x4096_1_1_0_0_n_n.rhsBatch by decide), dif_pos (show (0 : Fin S4096x1024.rank) ∈ dot_S256x1024_S4096x1024_S256x4096_1_1_0_0_n_n.rhsNonContracting by decide)]
  rfl

/-- On its contracted axis the right operand is read at the contraction position. -/
theorem dot_rhs_col (i : S256x4096.Idx) (q : dot_S256x1024_S4096x1024_S256x4096_1_1_0_0_n_n.contr.Idx) :
    (dot_S256x1024_S4096x1024_S256x4096_1_1_0_0_n_n.rhsIdx i q 1).val = (q ⟨0, by decide⟩).val :=
  dot_S256x1024_S4096x1024_S256x4096_1_1_0_0_n_n.rhsIdx_val_of_single rfl i q

/-- The product of a [256,1024] block with the transpose of a [4096,1024] block, accumulated onto zero, read at
    (p, n): the sum over q of a(p, q) · b(n, q). -/
theorem matmul_at (a : FVec Ideal S256x1024 .bf16) (b : FVec Ideal S4096x1024 .bf16) (p : Fin 256) (n : Fin 4096) :
    matmul (F := Ideal) dot_S256x1024_S4096x1024_S256x4096_1_1_0_0_n_n none a b (constant (F := Ideal) S256x4096 .f32 0x00000000#32) (ix2 p n)
      = ∑ q : Fin 1024, a (ix2 p q) * b (ix2 n q) := by
  simp only [matmul]
  rw [Ideal.matmul_constant_zero_apply, ← Equiv.sum_comp (ValueIdx.contrEquiv1 dot_S256x1024_S4096x1024_S256x4096_1_1_0_0_n_n 1024 rfl rfl).symm]
  refine Finset.sum_congr rfl fun k _ => ?_
  have hk := ValueIdx.contrEquiv1_symm_val dot_S256x1024_S4096x1024_S256x4096_1_1_0_0_n_n 1024 rfl rfl k
  have el : dot_S256x1024_S4096x1024_S256x4096_1_1_0_0_n_n.lhsIdx (ix2 p n) ((ValueIdx.contrEquiv1 dot_S256x1024_S4096x1024_S256x4096_1_1_0_0_n_n 1024 rfl rfl).symm k) = ix2 p k := funext fun c => Fin.ext (by
    match c with
    | ⟨0, _⟩ => exact dot_lhs_row _ _
    | ⟨1, _⟩ => exact (dot_lhs_col _ _).trans hk)
  have er : dot_S256x1024_S4096x1024_S256x4096_1_1_0_0_n_n.rhsIdx (ix2 p n) ((ValueIdx.contrEquiv1 dot_S256x1024_S4096x1024_S256x4096_1_1_0_0_n_n 1024 rfl rfl).symm k) = ix2 n k := funext fun c => Fin.ext (by
    match c with
    | ⟨0, _⟩ => exact dot_rhs_row _ _
    | ⟨1, _⟩ => exact (dot_rhs_col _ _).trans hk)
  rw [el, er]

/-! ## The pointwise activations at an index -/

/-- The logistic of a block at an index is the logistic of the entry. -/
theorem logistic_at {s : Shape} {φ : FTy} (x : FVec Ideal s φ) (i : s.Idx) : logistic x i = Ideal.logistic (x i) := rfl

/-- The hyperbolic tangent of a block at an index is that of the entry. -/
theorem tanh_at {s : Shape} {φ : FTy} (x : FVec Ideal s φ) (i : s.Idx) : tanh x i = Ideal.tanh (x i) := rfl

/-! ## The pre-activations at an index -/

/-- Entry (p, n) of the pre-activation block: the two contractions of row p with row n of the weights, added, plus
    entry n of the bias row. -/
theorem pay1_at (v0 v2 : Vec Ideal S256x1024 .f32) (v4 v6 : Vec Ideal S4096x1024 .bf16) (v11 : Vec Ideal S1x4096 .f32) (p : Fin 256) (n : Fin 4096) :
    k0_pay1 (F := Ideal) v0 v2 v4 v6 v11 (ix2 p n)
      = Cert.Lstm.pre (fun q => v0 (ix2 p q)) (fun q => v2 (ix2 p q))
        (fun n q => v4 (ix2 n q)) (fun n q => v6 (ix2 n q)) (fun n => v11 (ix2 (0 : Fin 1) n)) n := by
  unfold k0_pay1 Cert.Lstm.pre
  rw [addf_apply, addf_apply, matmul_at, matmul_at, shapeCast_self, shapeCast_self, shapeCast_self, broadcastTo_1b_ab_apply]
  rfl

/-! ## The two stored blocks at an index -/

/-- Entry (p, j) of the new cell block is the specification's new cell value of row p at hidden unit j. -/
theorem pay_c (v0 v2 : Vec Ideal S256x1024 .f32) (v4 v6 : Vec Ideal S4096x1024 .bf16) (v11 : Vec Ideal S1x4096 .f32) (v23 : Vec Ideal S256x1024 .f32) (p : Fin 256) (j : Fin 1024) :
    k0_pay2 (F := Ideal) v0 v2 v4 v6 v11 v23 (ix2 p j)
      = Cert.Lstm.newC (fun q => v0 (ix2 p q)) (fun q => v2 (ix2 p q)) (v23 (ix2 p j))
        (fun n q => v4 (ix2 n q)) (fun n q => v6 (ix2 n q)) (fun n => v11 (ix2 (0 : Fin 1) n)) j := by
  unfold k0_pay2 Cert.Lstm.newC
  rw [addf_apply, mulf_apply, mulf_apply, logistic_at, logistic_at, tanh_at,
    slice2_axis1_apply 1024 _ _ p j (Cert.Lstm.colF j) rfl,
    slice2_axis1_apply 0 _ _ p j (Cert.Lstm.colI j) (Nat.zero_add _).symm,
    slice2_axis1_apply 3072 _ _ p j (Cert.Lstm.colG j) rfl,
    pay1_at, pay1_at, pay1_at]

/-- Entry (p, j) of the new hidden block is the specification's new hidden value of row p at hidden unit j. -/
theorem pay_h (v0 v2 : Vec Ideal S256x1024 .f32) (v4 v6 : Vec Ideal S4096x1024 .bf16) (v11 : Vec Ideal S1x4096 .f32) (v23 : Vec Ideal S256x1024 .f32) (p : Fin 256) (j : Fin 1024) :
    k0_pay3 (F := Ideal) v0 v2 v4 v6 v11 v23 (ix2 p j)
      = Cert.Lstm.newH (fun q => v0 (ix2 p q)) (fun q => v2 (ix2 p q)) (v23 (ix2 p j))
        (fun n q => v4 (ix2 n q)) (fun n q => v6 (ix2 n q)) (fun n => v11 (ix2 (0 : Fin 1) n)) j := by
  unfold k0_pay3 Cert.Lstm.newH
  rw [mulf_apply, logistic_at, tanh_at,
    slice2_axis1_apply 2048 _ _ p j (Cert.Lstm.colO j) rfl,
    pay1_at, pay_c]

end Cert.KernelIdeal.Pay

end
-- ==== Proof.ValueKI.lean ====
/-
  What the idealized kernel's two result arrays hold after the run, as whole-array functions of the arrays the region
  finds.

  Grid point `t` stages rows `256·t … 256·t+255` of the input, previous-hidden and previous-cell arrays and the whole
  of the fused weight matrices and of the bias row, and writes back rows `256·t … 256·t+255` of the two results. Entry
  `(p, j)` of what it writes back is the body's stored value at `(p, j)`, which is one LSTM step (`Cert.Lstm.newH`,
  `newC`) of row `p` of the blocks — that is, of row `256·t + p` of the arrays. So every point writes back a block of ONE
  function of the arrays (`arrH`, `arrC`: row `r`, unit `j` ↦ the LSTM step of row `r` at unit `j`); the sixteen blocks tile
  the 4096 rows (row `r` lies in the block of point `r / 256`); hence the arrays end holding that function.
-/
import proofs.«108249_j188978561241_1_alg».proof.Proof.RunKI
import proofs.«108249_j188978561241_1_alg».proof.Proof.Payload
import proofs.«108249_j188978561241_1_alg».proof.Proof.Spec
import Idealize.ShloMosaic.Lib.Pipeline.Value
import Idealize.ShloMosaic.Lib.ValueIdx

set_option maxRecDepth 16384

noncomputable section

open scoped BigOperators

namespace Cert.KernelIdeal.Val

open Cert.KernelIdeal Cert.KernelIdeal.Gen Cert.KernelIdeal.Fr Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The whole-array functions -/

/-- The row and the column of an index of a [4096, 1024] array, as plain numbers. -/
def rowOf (i : S4096x1024.Idx) : Fin 4096 := ⟨(i 0).val, (i 0).isLt⟩
def colOf (i : S4096x1024.Idx) : Fin 1024 := ⟨(i 1).val, (i 1).isLt⟩

/-- The new hidden array: at `(r, j)` the LSTM step of row `r` of the input and previous-hidden arrays, the previous cell
    value at `(r, j)`, the fused weights and the bias row, at unit `j`. -/
def arrH (X H C Wx Wh : S4096x1024.Idx → EReal) (B : S1x4096.Idx → EReal) : S4096x1024.Idx → EReal := fun i =>
  Cert.Lstm.newH (fun q => X (ix2 (rowOf i) q)) (fun q => H (ix2 (rowOf i) q)) (C i)
    (fun n q => Wx (ix2 n q)) (fun n q => Wh (ix2 n q)) (fun n => B (ix2 (0 : Fin 1) n)) (colOf i)
/-- The new cell array, likewise. -/
def arrC (X H C Wx Wh : S4096x1024.Idx → EReal) (B : S1x4096.Idx → EReal) : S4096x1024.Idx → EReal := fun i =>
  Cert.Lstm.newC (fun q => X (ix2 (rowOf i) q)) (fun q => H (ix2 (rowOf i) q)) (C i)
    (fun n q => Wx (ix2 n q)) (fun n q => Wh (ix2 n q)) (fun n => B (ix2 (0 : Fin 1) n)) (colOf i)

/-! ## Where each window's block sits -/

theorem hz : (![0, 0] : Fin 2 → Nat) = fun _ => 0 := funext fun a => by fin_cases a <;> rfl

/-- The grid has sixteen points. -/
theorem t_lt (t : Fin cfg0.N) : t.val < 16 := by have h := t.isLt; have hN : cfg0.N = 16 := N_0; omega

/-- Row `p` of the block of point `t` is row `256·t + p` of the array. -/
def rowAt (t : Fin cfg0.N) (p : Fin 256) : Fin 4096 := ⟨t.val * 256 + p.val, by have := t_lt t; have := p.isLt; omega⟩

/-- The printed block positions, decided over the grid: the three row-blocked inputs and the two outputs sit at block
    row `t`, the weights and the bias row at the origin. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_6.index t (0 : Fin 2) = t.val
    ∧ win0_6.index t (1 : Fin 2) = 0
    ∧ win0_7.index t (0 : Fin 2) = t.val
    ∧ win0_7.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0 :=
  (by decide +kernel : ∀ t : Fin grid0.N, _)

/-- Entry `(p, q)` of window 0's block at point `t` is entry `(256·t + p, q)` of its array. -/
theorem emb0 (t : Fin cfg0.N) (p : Fin 256) (q : Fin 1024) : ((cfg0.win 0).blk t).view.emb (ix2 p q) = ix2 (rowAt t p) q := by
  obtain ⟨e0_0, e0_1, e1_0, e1_1, e2_0, e2_1, e6_0, e6_1, e7_0, e7_1, e3_0, e3_1, e4_0, e4_1, e5_0, e5_1⟩ := idx_facts t
  funext a; apply Fin.ext
  match a with
  | ⟨0, _⟩ => show win0_0.index t (0 : Fin 2) * 256 + 1 * p.val = t.val * 256 + p.val; rw [e0_0]; omega
  | ⟨1, _⟩ => show win0_0.index t (1 : Fin 2) * 1024 + 1 * q.val = q.val; rw [e0_1]; omega
/-- Entry `(p, q)` of window 1's block at point `t` is entry `(256·t + p, q)` of its array. -/
theorem emb1 (t : Fin cfg0.N) (p : Fin 256) (q : Fin 1024) : ((cfg0.win 1).blk t).view.emb (ix2 p q) = ix2 (rowAt t p) q := by
  obtain ⟨e0_0, e0_1, e1_0, e1_1, e2_0, e2_1, e6_0, e6_1, e7_0, e7_1, e3_0, e3_1, e4_0, e4_1, e5_0, e5_1⟩ := idx_facts t
  funext a; apply Fin.ext
  match a with
  | ⟨0, _⟩ => show win0_1.index t (0 : Fin 2) * 256 + 1 * p.val = t.val * 256 + p.val; rw [e1_0]; omega
  | ⟨1, _⟩ => show win0_1.index t (1 : Fin 2) * 1024 + 1 * q.val = q.val; rw [e1_1]; omega
/-- Entry `(p, q)` of window 2's block at point `t` is entry `(256·t + p, q)` of its array. -/
theorem emb2 (t : Fin cfg0.N) (p : Fin 256) (q : Fin 1024) : ((cfg0.win 2).blk t).view.emb (ix2 p q) = ix2 (rowAt t p) q := by
  obtain ⟨e0_0, e0_1, e1_0, e1_1, e2_0, e2_1, e6_0, e6_1, e7_0, e7_1, e3_0, e3_1, e4_0, e4_1, e5_0, e5_1⟩ := idx_facts t
  funext a; apply Fin.ext
  match a with
  | ⟨0, _⟩ => show win0_2.index t (0 : Fin 2) * 256 + 1 * p.val = t.val * 256 + p.val; rw [e2_0]; omega
  | ⟨1, _⟩ => show win0_2.index t (1 : Fin 2) * 1024 + 1 * q.val = q.val; rw [e2_1]; omega
/-- Entry `(p, q)` of window 6's block at point `t` is entry `(256·t + p, q)` of its array. -/
theorem emb6 (t : Fin cfg0.N) (p : Fin 256) (q : Fin 1024) : ((cfg0.win 6).blk t).view.emb (ix2 p q) = ix2 (rowAt t p) q := by
  obtain ⟨e0_0, e0_1, e1_0, e1_1, e2_0, e2_1, e6_0, e6_1, e7_0, e7_1, e3_0, e3_1, e4_0, e4_1, e5_0, e5_1⟩ := idx_facts t
  funext a; apply Fin.ext
  match a with
  | ⟨0, _⟩ => show win0_6.index t (0 : Fin 2) * 256 + 1 * p.val = t.val * 256 + p.val; rw [e6_0]; omega
  | ⟨1, _⟩ => show win0_6.index t (1 : Fin 2) * 1024 + 1 * q.val = q.val; rw [e6_1]; omega
/-- Entry `(p, q)` of window 7's block at point `t` is entry `(256·t + p, q)` of its array. -/
theorem emb7 (t : Fin cfg0.N) (p : Fin 256) (q : Fin 1024) : ((cfg0.win 7).blk t).view.emb (ix2 p q) = ix2 (rowAt t p) q := by
  obtain ⟨e0_0, e0_1, e1_0, e1_1, e2_0, e2_1, e6_0, e6_1, e7_0, e7_1, e3_0, e3_1, e4_0, e4_1, e5_0, e5_1⟩ := idx_facts t
  funext a; apply Fin.ext
  match a with
  | ⟨0, _⟩ => show win0_7.index t (0 : Fin 2) * 256 + 1 * p.val = t.val * 256 + p.val; rw [e7_0]; omega
  | ⟨1, _⟩ => show win0_7.index t (1 : Fin 2) * 1024 + 1 * q.val = q.val; rw [e7_1]; omega
/-- Window 3's block is the whole fused weight matrix. -/
theorem emb3 (t : Fin cfg0.N) (n : Fin 4096) (q : Fin 1024) : ((cfg0.win 3).blk t).view.emb (ix2 n q) = ix2 n q := by
  obtain ⟨e0_0, e0_1, e1_0, e1_1, e2_0, e2_1, e6_0, e6_1, e7_0, e7_1, e3_0, e3_1, e4_0, e4_1, e5_0, e5_1⟩ := idx_facts t
  funext a; apply Fin.ext
  match a with
  | ⟨0, _⟩ => show win0_3.index t (0 : Fin 2) * 4096 + 1 * n.val = n.val; rw [e3_0]; omega
  | ⟨1, _⟩ => show win0_3.index t (1 : Fin 2) * 1024 + 1 * q.val = q.val; rw [e3_1]; omega
/-- Window 4's block is the whole fused weight matrix. -/
theorem emb4 (t : Fin cfg0.N) (n : Fin 4096) (q : Fin 1024) : ((cfg0.win 4).blk t).view.emb (ix2 n q) = ix2 n q := by
  obtain ⟨e0_0, e0_1, e1_0, e1_1, e2_0, e2_1, e6_0, e6_1, e7_0, e7_1, e3_0, e3_1, e4_0, e4_1, e5_0, e5_1⟩ := idx_facts t
  funext a; apply Fin.ext
  match a with
  | ⟨0, _⟩ => show win0_4.index t (0 : Fin 2) * 4096 + 1 * n.val = n.val; rw [e4_0]; omega
  | ⟨1, _⟩ => show win0_4.index t (1 : Fin 2) * 1024 + 1 * q.val = q.val; rw [e4_1]; omega
/-- Window 5's block is the whole bias row. -/
theorem emb5 (t : Fin cfg0.N) (n : Fin 4096) : ((cfg0.win 5).blk t).view.emb (ix2 (0 : Fin 1) n) = ix2 (0 : Fin 1) n := by
  obtain ⟨e0_0, e0_1, e1_0, e1_1, e2_0, e2_1, e6_0, e6_1, e7_0, e7_1, e3_0, e3_1, e4_0, e4_1, e5_0, e5_1⟩ := idx_facts t
  funext a; apply Fin.ext
  match a with
  | ⟨0, _⟩ => show win0_5.index t (0 : Fin 2) * 1 + 1 * 0 = 0; rw [e5_0]
  | ⟨1, _⟩ => show win0_5.index t (1 : Fin 2) * 4096 + 1 * n.val = n.val; rw [e5_1]; omega

/-- The row and the column of entry `(256·t + p, j)`. -/
theorem rowOf_ix2 (r : Fin 4096) (j : Fin 1024) : rowOf (ix2 r j) = r := rfl
theorem colOf_ix2 (r : Fin 4096) (j : Fin 1024) : colOf (ix2 r j) = j := rfl

/-! ## What a point writes back -/

/-- One LSTM step of row `p` of six blocks is the step of row `r` of six arrays when the blocks' rows `p` are the arrays'
    rows `r` (and the weight and bias blocks are the arrays). -/
theorem step_congr_H (b0 b1 b2 : S256x1024.Idx → EReal) (b3 b4 : S4096x1024.Idx → EReal) (b5 : S1x4096.Idx → EReal)
    (X H C Wx Wh : S4096x1024.Idx → EReal) (B : S1x4096.Idx → EReal) (p : Fin 256) (r : Fin 4096) (j : Fin 1024)
    (h0 : ∀ q, b0 (ix2 p q) = X (ix2 r q)) (h1 : ∀ q, b1 (ix2 p q) = H (ix2 r q)) (h2 : b2 (ix2 p j) = C (ix2 r j))
    (h3 : ∀ n q, b3 (ix2 n q) = Wx (ix2 n q)) (h4 : ∀ n q, b4 (ix2 n q) = Wh (ix2 n q)) (h5 : ∀ n, b5 (ix2 (0 : Fin 1) n) = B (ix2 (0 : Fin 1) n)) :
    Cert.Lstm.newH (fun q => b0 (ix2 p q)) (fun q => b1 (ix2 p q)) (b2 (ix2 p j)) (fun n q => b3 (ix2 n q)) (fun n q => b4 (ix2 n q)) (fun n => b5 (ix2 (0 : Fin 1) n)) j
      = arrH X H C Wx Wh B (ix2 r j) := by
  unfold arrH
  rw [rowOf_ix2, colOf_ix2, funext h0, funext h1, h2, funext fun n => funext (h3 n), funext fun n => funext (h4 n), funext h5]
theorem step_congr_C (b0 b1 b2 : S256x1024.Idx → EReal) (b3 b4 : S4096x1024.Idx → EReal) (b5 : S1x4096.Idx → EReal)
    (X H C Wx Wh : S4096x1024.Idx → EReal) (B : S1x4096.Idx → EReal) (p : Fin 256) (r : Fin 4096) (j : Fin 1024)
    (h0 : ∀ q, b0 (ix2 p q) = X (ix2 r q)) (h1 : ∀ q, b1 (ix2 p q) = H (ix2 r q)) (h2 : b2 (ix2 p j) = C (ix2 r j))
    (h3 : ∀ n q, b3 (ix2 n q) = Wx (ix2 n q)) (h4 : ∀ n q, b4 (ix2 n q) = Wh (ix2 n q)) (h5 : ∀ n, b5 (ix2 (0 : Fin 1) n) = B (ix2 (0 : Fin 1) n)) :
    Cert.Lstm.newC (fun q => b0 (ix2 p q)) (fun q => b1 (ix2 p q)) (b2 (ix2 p j)) (fun n q => b3 (ix2 n q)) (fun n q => b4 (ix2 n q)) (fun n => b5 (ix2 (0 : Fin 1) n)) j
      = arrC X H C Wx Wh B (ix2 r j) := by
  unfold arrC
  rw [rowOf_ix2, colOf_ix2, funext h0, funext h1, h2, funext fun n => funext (h3 n), funext fun n => funext (h4 n), funext h5]

/-- An entry of a window's block is the entry of its array where the block puts it. -/
theorem iblk_apply (c : Dev nD) (w : Fin cfg0.W) (t : Fin cfg0.N) (y) :
    iblk m c w t y = ((cfg0.win w).blk t).view.read (Elt Ideal) (V m c (Pipeline.arrRef spec0 w)) y := rfl

/-- WHAT POINT `t` WRITES BACK to the new-hidden array is block `t` of `arrH` of the arrays as the region finds them. -/
theorem flushedH_eq (c : Dev nD) (t : Fin cfg0.N) :
    (dats m 0 c).flushed 6 t = ((cfg0.win 6).blk t).view.read (Elt Ideal)
      (arrH (V m c main_arg0) (V m c main_arg1) (V m c main_arg2) (V m c main_v1) (V m c main_v3) (V m c main_v7)) := by
  show (cfg0.win 6).cut (grid0.coords t) ((dats m 0 c).after 6 t) = _
  rw [after6]
  unfold outH
  rw [View.canon_unit_zero hz]
  simp only [View.ld_unit_zero (S := S256x1024) hz, View.ld_unit_zero (S := S4096x1024) hz, View.ld_unit_zero (S := S1x4096) hz]
  funext y
  obtain ⟨p, j, rfl⟩ : ∃ (p : Fin 256) (j : Fin 1024), y = ix2 p j := ⟨y 0, y 1, eq_ix2 y⟩
  show k0_pay3 (F := Ideal) (iblk m c 0 t) (iblk m c 1 t) (iblk m c 3 t) (iblk m c 4 t) (iblk m c 5 t) (iblk m c 2 t) (ix2 p j)
    = arrH (V m c main_arg0) (V m c main_arg1) (V m c main_arg2) (V m c main_v1) (V m c main_v3) (V m c main_v7) (((cfg0.win 6).blk t).view.emb (ix2 p j))
  rw [emb6 t p j]
  refine (Cert.KernelIdeal.Pay.pay_h (iblk m c 0 t) (iblk m c 1 t) (iblk m c 3 t) (iblk m c 4 t) (iblk m c 5 t) (iblk m c 2 t) p j).trans ?_
  refine step_congr_H _ _ _ _ _ _ _ _ _ _ _ _ p (rowAt t p) j ?_ ?_ ?_ ?_ ?_ ?_
  · intro q; show V m c main_arg0 (((cfg0.win 0).blk t).view.emb (ix2 p q)) = _; rw [emb0 t p q]
  · intro q; show V m c main_arg1 (((cfg0.win 1).blk t).view.emb (ix2 p q)) = _; rw [emb1 t p q]
  · show V m c main_arg2 (((cfg0.win 2).blk t).view.emb (ix2 p j)) = _; rw [emb2 t p j]
  · intro n q; show V m c main_v1 (((cfg0.win 3).blk t).view.emb (ix2 n q)) = _; rw [emb3 t n q]
  · intro n q; show V m c main_v3 (((cfg0.win 4).blk t).view.emb (ix2 n q)) = _; rw [emb4 t n q]
  · intro n; show V m c main_v7 (((cfg0.win 5).blk t).view.emb (ix2 (0 : Fin 1) n)) = _; rw [emb5 t n]

/-- WHAT POINT `t` WRITES BACK to the new-cell array is block `t` of `arrC`. -/
theorem flushedC_eq (c : Dev nD) (t : Fin cfg0.N) :
    (dats m 0 c).flushed 7 t = ((cfg0.win 7).blk t).view.read (Elt Ideal)
      (arrC (V m c main_arg0) (V m c main_arg1) (V m c main_arg2) (V m c main_v1) (V m c main_v3) (V m c main_v7)) := by
  show (cfg0.win 7).cut (grid0.coords t) ((dats m 0 c).after 7 t) = _
  rw [after7]
  unfold outC
  rw [View.canon_unit_zero hz]
  simp only [View.ld_unit_zero (S := S256x1024) hz, View.ld_unit_zero (S := S4096x1024) hz, View.ld_unit_zero (S := S1x4096) hz]
  funext y
  obtain ⟨p, j, rfl⟩ : ∃ (p : Fin 256) (j : Fin 1024), y = ix2 p j := ⟨y 0, y 1, eq_ix2 y⟩
  show k0_pay2 (F := Ideal) (iblk m c 0 t) (iblk m c 1 t) (iblk m c 3 t) (iblk m c 4 t) (iblk m c 5 t) (iblk m c 2 t) (ix2 p j)
    = arrC (V m c main_arg0) (V m c main_arg1) (V m c main_arg2) (V m c main_v1) (V m c main_v3) (V m c main_v7) (((cfg0.win 7).blk t).view.emb (ix2 p j))
  rw [emb7 t p j]
  refine (Cert.KernelIdeal.Pay.pay_c (iblk m c 0 t) (iblk m c 1 t) (iblk m c 3 t) (iblk m c 4 t) (iblk m c 5 t) (iblk m c 2 t) p j).trans ?_
  refine step_congr_C _ _ _ _ _ _ _ _ _ _ _ _ p (rowAt t p) j ?_ ?_ ?_ ?_ ?_ ?_
  · intro q; show V m c main_arg0 (((cfg0.win 0).blk t).view.emb (ix2 p q)) = _; rw [emb0 t p q]
  · intro q; show V m c main_arg1 (((cfg0.win 1).blk t).view.emb (ix2 p q)) = _; rw [emb1 t p q]
  · show V m c main_arg2 (((cfg0.win 2).blk t).view.emb (ix2 p j)) = _; rw [emb2 t p j]
  · intro n q; show V m c main_v1 (((cfg0.win 3).blk t).view.emb (ix2 n q)) = _; rw [emb3 t n q]
  · intro n q; show V m c main_v3 (((cfg0.win 4).blk t).view.emb (ix2 n q)) = _; rw [emb4 t n q]
  · intro n; show V m c main_v7 (((cfg0.win 5).blk t).view.emb (ix2 (0 : Fin 1) n)) = _; rw [emb5 t n]

/-! ## The sixteen blocks tile the rows -/

/-- An index of the array is in point `t`'s block of window 6 iff each coordinate is in the block's range on its axis. -/
theorem mem_blk6 (t : Fin cfg0.N) (i : S4096x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v8_0).slice (win0_6.rect t)).set ↔ _
  rw [View.set_slice_whole, Rect.mem_set_unit]
  exact Iff.rfl

/-- Row `r` lies in the block of point `r / 256`. -/
theorem cover6 (i : S4096x1024.Idx) : ∃ t : Fin cfg0.N, (cfg0.win 6).flush t = true ∧ i ∈ ((cfg0.win 6).blk t).view.set := by
  have hi0 : (i 0).val < 4096 := (i 0).isLt
  have hi1 : (i 1).val < 1024 := (i 1).isLt
  have hN : cfg0.N = 16 := N_0
  refine ⟨⟨(i 0).val / 256, by omega⟩, flush0_6 _, ?_⟩
  rw [mem_blk6]
  obtain ⟨e0_0, e0_1, e1_0, e1_1, e2_0, e2_1, e6_0, e6_1, e7_0, e7_1, e3_0, e3_1, e4_0, e4_1, e5_0, e5_1⟩ := idx_facts ⟨(i 0).val / 256, by omega⟩
  intro a
  match a with
  | ⟨0, _⟩ => show win0_6.index _ (0 : Fin 2) * 256 ≤ (i 0).val ∧ (i 0).val < win0_6.index _ (0 : Fin 2) * 256 + 256; rw [e6_0]; show (i 0).val / 256 * 256 ≤ (i 0).val ∧ (i 0).val < (i 0).val / 256 * 256 + 256; omega
  | ⟨1, _⟩ => show win0_6.index _ (1 : Fin 2) * 1024 ≤ (i 1).val ∧ (i 1).val < win0_6.index _ (1 : Fin 2) * 1024 + 1024; rw [e6_1]; omega

/-- An index of the array is in point `t`'s block of window 7 iff each coordinate is in the block's range on its axis. -/
theorem mem_blk7 (t : Fin cfg0.N) (i : S4096x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v8_1).slice (win0_7.rect t)).set ↔ _
  rw [View.set_slice_whole, Rect.mem_set_unit]
  exact Iff.rfl

/-- Row `r` lies in the block of point `r / 256`. -/
theorem cover7 (i : S4096x1024.Idx) : ∃ t : Fin cfg0.N, (cfg0.win 7).flush t = true ∧ i ∈ ((cfg0.win 7).blk t).view.set := by
  have hi0 : (i 0).val < 4096 := (i 0).isLt
  have hi1 : (i 1).val < 1024 := (i 1).isLt
  have hN : cfg0.N = 16 := N_0
  refine ⟨⟨(i 0).val / 256, by omega⟩, flush0_7 _, ?_⟩
  rw [mem_blk7]
  obtain ⟨e0_0, e0_1, e1_0, e1_1, e2_0, e2_1, e6_0, e6_1, e7_0, e7_1, e3_0, e3_1, e4_0, e4_1, e5_0, e5_1⟩ := idx_facts ⟨(i 0).val / 256, by omega⟩
  intro a
  match a with
  | ⟨0, _⟩ => show win0_7.index _ (0 : Fin 2) * 256 ≤ (i 0).val ∧ (i 0).val < win0_7.index _ (0 : Fin 2) * 256 + 256; rw [e7_0]; show (i 0).val / 256 * 256 ≤ (i 0).val ∧ (i 0).val < (i 0).val / 256 * 256 + 256; omega
  | ⟨1, _⟩ => show win0_7.index _ (1 : Fin 2) * 1024 ≤ (i 1).val ∧ (i 1).val < win0_7.index _ (1 : Fin 2) * 1024 + 1024; rw [e7_1]; omega

/-! ## The arrays after the run -/

/-- The new-hidden array ends holding `arrH` of the arrays as the region finds them. -/
theorem finalH (c : Dev nD) : (dats m 0 c).arrAt 6 cfg0.N = arrH (V m c main_arg0) (V m c main_arg1) (V m c main_arg2) (V m c main_v1) (V m c main_v3) (V m c main_v7) :=
  (dats m 0 c).arrAt_eq_of_cover 6 (arrH (V m c main_arg0) (V m c main_arg1) (V m c main_arg2) (V m c main_v1) (V m c main_v3) (V m c main_v7)) (fun t _ => flushedH_eq m c t) cover6
/-- The new-cell array ends holding `arrC`. -/
theorem finalC (c : Dev nD) : (dats m 0 c).arrAt 7 cfg0.N = arrC (V m c main_arg0) (V m c main_arg1) (V m c main_arg2) (V m c main_v1) (V m c main_v3) (V m c main_v7) :=
  (dats m 0 c).arrAt_eq_of_cover 7 (arrC (V m c main_arg0) (V m c main_arg1) (V m c main_arg2) (V m c main_v1) (V m c main_v3) (V m c main_v7)) (fun t _ => flushedC_eq m c t) cover7

/-- After the run the nineteen argument arrays are as launched. -/
theorem kept (r : PUnit × MemSt nD τ sig (Elt Ideal)) (h : Pipeline.FramePost cfgs (dats m) 0 (V m) r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18) :=
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c),
    ((h c).2 main_arg13 (Pipeline.mem_restRefs_of main_arg13 (by decide) (by decide))).trans (V_main_arg13 m c),
    ((h c).2 main_arg14 (Pipeline.mem_restRefs_of main_arg14 (by decide) (by decide))).trans (V_main_arg14 m c),
    ((h c).2 main_arg15 (Pipeline.mem_restRefs_of main_arg15 (by decide) (by decide))).trans (V_main_arg15 m c),
    ((h c).2 main_arg16 (Pipeline.mem_restRefs_of main_arg16 (by decide) (by decide))).trans (V_main_arg16 m c),
    ((h c).2 main_arg17 (Pipeline.mem_restRefs_of main_arg17 (by decide) (by decide))).trans (V_main_arg17 m c),
    ((h c).2 main_arg18 (Pipeline.mem_restRefs_of main_arg18 (by decide) (by decide))).trans (V_main_arg18 m c)⟩

/-- The run re-posted: the two result arrays at their whole-array functions, the arguments unchanged. -/
theorem run : θ_run defs (onTc (τ := τ) (main (F := Ideal))) ⟨m, fun _ => 0, ρ⟩ fun r => ∀ c : Dev nD,
      r.2.mem ((c : Thread nD τ).loc main_v8_0) = arrH (V m c main_arg0) (V m c main_arg1) (V m c main_arg2) (V m c main_v1) (V m c main_v3) (V m c main_v7)
      ∧ r.2.mem ((c : Thread nD τ).loc main_v8_1) = arrC (V m c main_arg0) (V m c main_arg1) (V m c main_arg2) (V m c main_v1) (V m c main_v3) (V m c main_v7)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18) :=
  (θ_run defs _ _).mono (fun r h c => ⟨((h c).1 6).trans (finalH m c), ((h c).1 7).trans (finalC m c), kept m r h c⟩)
    (run_main m ρ)

end Cert.KernelIdeal.Val

end
-- ==== Proof.RefSpec.lean ====
/-
  The reference's new cell and hidden arrays, read at one index, are the LSTM step of the specification.

  Each operation of the reference is read at an index: the two matrix products as sums over the contracted axis (the
  transposes of the fused weights give back the weights' own rows), the bias broadcast as the bias at the column, the
  four column slices of the 4096-wide pre-activation as its columns `j`, `1024 + j`, `2048 + j`, `3072 + j`, and the
  expansion 1 / (1 + e^(−g)) of each gate as the logistic function, whose definition on the extended reals is that
  very expression once the constant's word is known to denote 1.
-/
import proofs.«108249_j188978561241_1_alg».proof.Proof.Gen.ReferenceIdeal.Read
import proofs.«108249_j188978561241_1_alg».proof.Proof.Spec

noncomputable section

open scoped BigOperators

namespace Cert.ReferenceIdeal.RefValue

open Cert.ReferenceIdeal Cert.ReferenceIdeal.Gen Idealize.ShloMosaic Idealize.ShloMosaic.TcCoe Idealize.ShloMosaic.ValueIdx

/-- The f32 word of 1.0 denotes 1 on the extended reals. -/
theorem ofBits_one : Ideal.ofBits .f32 0x3F800000#32 = 1 := by
  simp [Ideal.ofBits, Ideal.ieee, -EReal.coe_mul]; norm_num

/-! ## Index equations: where each layout operation reads its operand, in coordinates -/

/-- Entry `(r, n)` of the first product reads its left operand along row `r`. -/
theorem lidx5_eq (r n : Fin 4096) (k : Fin 1024) : Read.lidx_main_v5 (ix2 r n) k = ix2 r k :=
  funext fun a => Fin.ext (by match a with | ⟨0, _⟩ => rfl | ⟨1, _⟩ => rfl)
/-- … and its right operand, the transposed fused weights, at `(k, n)`: entry `(n, k)` of the weights. -/
theorem ridx5_eq (r n : Fin 4096) (k : Fin 1024) : Read.idx_main_v4 (Read.ridx_main_v5 (ix2 r n) k) = ix2 n k :=
  funext fun a => Fin.ext (by match a with | ⟨0, _⟩ => rfl | ⟨1, _⟩ => rfl)
/-- The same two facts for the second product. -/
theorem lidx7_eq (r n : Fin 4096) (k : Fin 1024) : Read.lidx_main_v7 (ix2 r n) k = ix2 r k :=
  funext fun a => Fin.ext (by match a with | ⟨0, _⟩ => rfl | ⟨1, _⟩ => rfl)
theorem ridx7_eq (r n : Fin 4096) (k : Fin 1024) : Read.idx_main_v6 (Read.ridx_main_v7 (ix2 r n) k) = ix2 n k :=
  funext fun a => Fin.ext (by match a with | ⟨0, _⟩ => rfl | ⟨1, _⟩ => rfl)
/-- The bias, broadcast along the rows, is read at the column. -/
theorem bias_idx_eq (r n : Fin 4096) : Read.idx_main_v10 (Read.idx_main_v11 (ix2 r n)) = ix1 n :=
  funext fun a => Fin.ext (by match a with | ⟨0, _⟩ => rfl)
/-- The four slices read column `j` of the input gate's, the forget gate's, the output gate's and the candidate's quarter. -/
theorem sliceI_eq (r : Fin 4096) (j : Fin 1024) : Read.idx_main_v13 (ix2 r j) = ix2 r (Cert.Lstm.colI j) :=
  funext fun a => Fin.ext (by match a with | ⟨0, _⟩ => rfl | ⟨1, _⟩ => rfl)
theorem sliceF_eq (r : Fin 4096) (j : Fin 1024) : Read.idx_main_v14 (ix2 r j) = ix2 r (Cert.Lstm.colF j) :=
  funext fun a => Fin.ext (by match a with | ⟨0, _⟩ => rfl | ⟨1, _⟩ => rfl)
theorem sliceO_eq (r : Fin 4096) (j : Fin 1024) : Read.idx_main_v15 (ix2 r j) = ix2 r (Cert.Lstm.colO j) :=
  funext fun a => Fin.ext (by match a with | ⟨0, _⟩ => rfl | ⟨1, _⟩ => rfl)
theorem sliceG_eq (r : Fin 4096) (j : Fin 1024) : Read.idx_main_v16 (ix2 r j) = ix2 r (Cert.Lstm.colG j) :=
  funext fun a => Fin.ext (by match a with | ⟨0, _⟩ => rfl | ⟨1, _⟩ => rfl)

/-! ## The pre-activation, the gates and the candidate at an index -/

section Stages

variable (x0 x1 x2 : (⟨S4096x1024, .f32⟩ : BufTy).Contents (Elt Ideal)) (x3 x5 x7 x9 x11 x13 x15 x17 : (⟨S1024x1024, .f32⟩ : BufTy).Contents (Elt Ideal)) (x4 x6 x8 x10 x12 x14 x16 x18 : (⟨S1024, .f32⟩ : BufTy).Contents (Elt Ideal))

/-- Entry `(r, n)` of the 4096-wide pre-activation is the specification's `pre` of row `r` at fused column `n`: the two
    contractions added, then the summed bias. -/
theorem pre12 (r n : Fin 4096) :
    Read.val_main_v12 (F := Ideal) x0 x1 x3 x4 x5 x6 x7 x8 x9 x10 x11 x12 x13 x14 x15 x16 x17 x18 (ix2 r n)
      = Cert.Lstm.pre (fun q => x0 (ix2 r q)) (fun q => x1 (ix2 r q))
        (fun n q => Read.val_main_v0 (F := Ideal) x3 x7 x11 x15 (ix2 n q)) (fun n q => Read.val_main_v1 (F := Ideal) x5 x9 x13 x17 (ix2 n q))
        (fun n => Read.val_main_v9 (F := Ideal) x4 x6 x8 x10 x12 x14 x16 x18 (ix1 n)) n := by
  rw [Read.val_main_v12_apply, Read.val_main_v8_apply, Read.val_main_v5_apply, Read.val_main_v7_apply,
    Read.val_main_v11_apply, Read.val_main_v10_apply]
  simp only [Read.val_main_v4_apply, Read.val_main_v6_apply, lidx5_eq, ridx5_eq, lidx7_eq, ridx7_eq, bias_idx_eq,
    Ideal.addf_def]
  rfl

/-- The input gate: 1 / (1 + e^(−g)) of the first quarter's column is the logistic function there. -/
theorem gateI (r : Fin 4096) (j : Fin 1024) :
    Read.val_main_v22 (F := Ideal) x0 x1 x3 x4 x5 x6 x7 x8 x9 x10 x11 x12 x13 x14 x15 x16 x17 x18 (ix2 r j)
      = Ideal.logistic (Cert.Lstm.pre (fun q => x0 (ix2 r q)) (fun q => x1 (ix2 r q))
        (fun n q => Read.val_main_v0 (F := Ideal) x3 x7 x11 x15 (ix2 n q)) (fun n q => Read.val_main_v1 (F := Ideal) x5 x9 x13 x17 (ix2 n q))
        (fun n => Read.val_main_v9 (F := Ideal) x4 x6 x8 x10 x12 x14 x16 x18 (ix1 n)) (Cert.Lstm.colI j)) := by
  rw [Read.val_main_v22_apply, Read.val_main_v21_apply, Read.val_main_cst_0_apply, Read.val_main_v20_apply, Read.val_main_v19_apply, Read.val_main_cst_apply, Read.val_main_v18_apply, Read.val_main_v17_apply, Read.val_main_v13_apply, sliceI_eq, pre12]
  simp only [Ideal.hostDivf_def, Ideal.addf_def, Ideal.hostUnary_exp_def, Ideal.hostNegf_def, Ideal.negf_def,
    Ideal.ofBits_def, ofBits_one]
  rfl

/-- The forget gate, on the second quarter. -/
theorem gateF (r : Fin 4096) (j : Fin 1024) :
    Read.val_main_v28 (F := Ideal) x0 x1 x3 x4 x5 x6 x7 x8 x9 x10 x11 x12 x13 x14 x15 x16 x17 x18 (ix2 r j)
      = Ideal.logistic (Cert.Lstm.pre (fun q => x0 (ix2 r q)) (fun q => x1 (ix2 r q))
        (fun n q => Read.val_main_v0 (F := Ideal) x3 x7 x11 x15 (ix2 n q)) (fun n q => Read.val_main_v1 (F := Ideal) x5 x9 x13 x17 (ix2 n q))
        (fun n => Read.val_main_v9 (F := Ideal) x4 x6 x8 x10 x12 x14 x16 x18 (ix1 n)) (Cert.Lstm.colF j)) := by
  rw [Read.val_main_v28_apply, Read.val_main_v27_apply, Read.val_main_cst_2_apply, Read.val_main_v26_apply, Read.val_main_v25_apply, Read.val_main_cst_1_apply, Read.val_main_v24_apply, Read.val_main_v23_apply, Read.val_main_v14_apply, sliceF_eq, pre12]
  simp only [Ideal.hostDivf_def, Ideal.addf_def, Ideal.hostUnary_exp_def, Ideal.hostNegf_def, Ideal.negf_def,
    Ideal.ofBits_def, ofBits_one]
  rfl

/-- The output gate, on the third quarter. -/
theorem gateO (r : Fin 4096) (j : Fin 1024) :
    Read.val_main_v34 (F := Ideal) x0 x1 x3 x4 x5 x6 x7 x8 x9 x10 x11 x12 x13 x14 x15 x16 x17 x18 (ix2 r j)
      = Ideal.logistic (Cert.Lstm.pre (fun q => x0 (ix2 r q)) (fun q => x1 (ix2 r q))
        (fun n q => Read.val_main_v0 (F := Ideal) x3 x7 x11 x15 (ix2 n q)) (fun n q => Read.val_main_v1 (F := Ideal) x5 x9 x13 x17 (ix2 n q))
        (fun n => Read.val_main_v9 (F := Ideal) x4 x6 x8 x10 x12 x14 x16 x18 (ix1 n)) (Cert.Lstm.colO j)) := by
  rw [Read.val_main_v34_apply, Read.val_main_v33_apply, Read.val_main_cst_4_apply, Read.val_main_v32_apply, Read.val_main_v31_apply, Read.val_main_cst_3_apply, Read.val_main_v30_apply, Read.val_main_v29_apply, Read.val_main_v15_apply, sliceO_eq, pre12]
  simp only [Ideal.hostDivf_def, Ideal.addf_def, Ideal.hostUnary_exp_def, Ideal.hostNegf_def, Ideal.negf_def,
    Ideal.ofBits_def, ofBits_one]
  rfl

/-- The candidate: tanh of the fourth quarter's column. -/
theorem cand (r : Fin 4096) (j : Fin 1024) :
    Read.val_main_v35 (F := Ideal) x0 x1 x3 x4 x5 x6 x7 x8 x9 x10 x11 x12 x13 x14 x15 x16 x17 x18 (ix2 r j)
      = Ideal.tanh (Cert.Lstm.pre (fun q => x0 (ix2 r q)) (fun q => x1 (ix2 r q))
        (fun n q => Read.val_main_v0 (F := Ideal) x3 x7 x11 x15 (ix2 n q)) (fun n q => Read.val_main_v1 (F := Ideal) x5 x9 x13 x17 (ix2 n q))
        (fun n => Read.val_main_v9 (F := Ideal) x4 x6 x8 x10 x12 x14 x16 x18 (ix1 n)) (Cert.Lstm.colG j)) := by
  rw [Read.val_main_v35_apply, Read.val_main_v16_apply, sliceG_eq, pre12]
  simp only [Ideal.hostUnary_tanh_def]

end Stages

/-! ## The two results -/

/-- The new cell array at `(r, j)`: forget gate times the previous cell value plus input gate times candidate. -/
theorem ref_c (x0 : (⟨S4096x1024, .f32⟩ : BufTy).Contents (Elt Ideal)) (x1 : (⟨S4096x1024, .f32⟩ : BufTy).Contents (Elt Ideal)) (x2 : (⟨S4096x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal)) (x15 : (⟨S1024x1024, .f32⟩ : BufTy).Contents (Elt Ideal)) (x16 : (⟨S1024, .f32⟩ : BufTy).Contents (Elt Ideal)) (x17 : (⟨S1024x1024, .f32⟩ : BufTy).Contents (Elt Ideal)) (x18 : (⟨S1024, .f32⟩ : BufTy).Contents (Elt Ideal)) (r : Fin 4096) (j : Fin 1024) :
    Read.val_main_v38 (F := Ideal) x0 x1 x2 x3 x4 x5 x6 x7 x8 x9 x10 x11 x12 x13 x14 x15 x16 x17 x18 (ix2 r j)
      = Cert.Lstm.newC (fun q => x0 (ix2 r q)) (fun q => x1 (ix2 r q)) (x2 (ix2 r j))
        (fun n q => Read.val_main_v0 (F := Ideal) x3 x7 x11 x15 (ix2 n q)) (fun n q => Read.val_main_v1 (F := Ideal) x5 x9 x13 x17 (ix2 n q))
        (fun n => Read.val_main_v9 (F := Ideal) x4 x6 x8 x10 x12 x14 x16 x18 (ix1 n)) j := by
  rw [Read.val_main_v38_apply, Read.val_main_v36_apply, Read.val_main_v37_apply, gateF, gateI, cand]
  simp only [Ideal.addf_def, Ideal.mulf_def]
  rfl

/-- The new hidden array at `(r, j)`: output gate times tanh of the new cell value. -/
theorem ref_h (x0 : (⟨S4096x1024, .f32⟩ : BufTy).Contents (Elt Ideal)) (x1 : (⟨S4096x1024, .f32⟩ : BufTy).Contents (Elt Ideal)) (x2 : (⟨S4096x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal)) (x15 : (⟨S1024x1024, .f32⟩ : BufTy).Contents (Elt Ideal)) (x16 : (⟨S1024, .f32⟩ : BufTy).Contents (Elt Ideal)) (x17 : (⟨S1024x1024, .f32⟩ : BufTy).Contents (Elt Ideal)) (x18 : (⟨S1024, .f32⟩ : BufTy).Contents (Elt Ideal)) (r : Fin 4096) (j : Fin 1024) :
    Read.val_main_v40 (F := Ideal) x0 x1 x2 x3 x4 x5 x6 x7 x8 x9 x10 x11 x12 x13 x14 x15 x16 x17 x18 (ix2 r j)
      = Cert.Lstm.newH (fun q => x0 (ix2 r q)) (fun q => x1 (ix2 r q)) (x2 (ix2 r j))
        (fun n q => Read.val_main_v0 (F := Ideal) x3 x7 x11 x15 (ix2 n q)) (fun n q => Read.val_main_v1 (F := Ideal) x5 x9 x13 x17 (ix2 n q))
        (fun n => Read.val_main_v9 (F := Ideal) x4 x6 x8 x10 x12 x14 x16 x18 (ix1 n)) j := by
  rw [Read.val_main_v40_apply, Read.val_main_v39_apply, gateO, ref_c]
  simp only [Ideal.mulf_def, Ideal.hostUnary_tanh_def]
  rfl

end Cert.ReferenceIdeal.RefValue

end
-- ==== Proof.Bridge.lean ====
/-
  The idealized kernel's result arrays are the reference's.

  The region finds three buffers the host operations wrote: the two fused weight matrices — the four gates' matrices
  joined row-wise, then narrowed, which on the extended reals changes nothing — and the bias row — the two fused bias
  vectors added, laid out as one row. The reference joins the same matrices and adds the same vectors, so entry by
  entry these are the reference's own fused matrices and summed bias. With the arguments agreeing, entry `(r, j)` of
  either program's new hidden (new cell) array is then the same LSTM step of row `r` at unit `j`.
-/
import proofs.«108249_j188978561241_1_alg».proof.Proof.ValueKI
import proofs.«108249_j188978561241_1_alg».proof.Proof.RefSpec
import Idealize.ShloMosaic.Lib.StableHlo.Run
import Idealize.ShloMosaic.Lib.ValueLayout
import Idealize.ShloMosaic.Lib.ValueIdx

set_option maxRecDepth 16384

noncomputable section

open scoped BigOperators

namespace Cert.KernelIdeal.Bridge

open Cert.KernelIdeal Cert.KernelIdeal.Gen Cert.KernelIdeal.Fr Cert.KernelIdeal.Val Idealize.ShloMosaic Idealize.ShloMosaic.TcCoe Idealize.SL.Sem
open Idealize.ShloMosaic.ValueIdx Idealize.ShloMosaic.StableHlo

variable (m : (ℓ : Loc nD τ sig) → Buf (Elt Ideal) ℓ)

/-! ## The buffers the host operations wrote, entry by entry -/

/-- The fused input-weight matrix the region finds is, entry by entry, the four input-weight matrices joined row-wise. -/
theorem Wx_apply (c : Dev nD) (n : Fin 4096) (q : Fin 1024) :
    (V m c main_v1 : S4096x1024.Idx → EReal) (ix2 n q) = Cert.ReferenceIdeal.Read.val_main_v0 (F := Ideal) (m ((c : Thread nD τ).loc main_arg3)) (m ((c : Thread nD τ).loc main_arg7)) (m ((c : Thread nD τ).loc main_arg11)) (m ((c : Thread nD τ).loc main_arg15)) (ix2 n q) := by
  have e : (V m c main_v1 : S4096x1024.Idx → EReal) = (truncf .bf16 (Cert.ReferenceIdeal.Read.val_main_v0 (F := Ideal) (m ((c : Thread nD τ).loc main_arg3)) (m ((c : Thread nD τ).loc main_arg7)) (m ((c : Thread nD τ).loc main_arg11)) (m ((c : Thread nD τ).loc main_arg15))) bitsLt_bf16_f32 : FVec Ideal S4096x1024 .bf16) := by
    dsimp only [V, hostOps0]; after_results; rfl
  rw [e]; rfl

/-- The fused hidden-weight matrix, likewise. -/
theorem Wh_apply (c : Dev nD) (n : Fin 4096) (q : Fin 1024) :
    (V m c main_v3 : S4096x1024.Idx → EReal) (ix2 n q) = Cert.ReferenceIdeal.Read.val_main_v1 (F := Ideal) (m ((c : Thread nD τ).loc main_arg5)) (m ((c : Thread nD τ).loc main_arg9)) (m ((c : Thread nD τ).loc main_arg13)) (m ((c : Thread nD τ).loc main_arg17)) (ix2 n q) := by
  have e : (V m c main_v3 : S4096x1024.Idx → EReal) = (truncf .bf16 (Cert.ReferenceIdeal.Read.val_main_v1 (F := Ideal) (m ((c : Thread nD τ).loc main_arg5)) (m ((c : Thread nD τ).loc main_arg9)) (m ((c : Thread nD τ).loc main_arg13)) (m ((c : Thread nD τ).loc main_arg17))) bitsLt_bf16_f32 : FVec Ideal S4096x1024 .bf16) := by
    dsimp only [V, hostOps0]; after_results; rfl
  rw [e]; rfl

/-- The bias row the region finds holds, at column `n`, entry `n` of the sum of the two fused bias vectors. -/
theorem B_apply (c : Dev nD) (n : Fin 4096) :
    (V m c main_v7 : S1x4096.Idx → EReal) (ix2 (0 : Fin 1) n) = Cert.ReferenceIdeal.Read.val_main_v9 (F := Ideal) (m ((c : Thread nD τ).loc main_arg4)) (m ((c : Thread nD τ).loc main_arg6)) (m ((c : Thread nD τ).loc main_arg8)) (m ((c : Thread nD τ).loc main_arg10)) (m ((c : Thread nD τ).loc main_arg12)) (m ((c : Thread nD τ).loc main_arg14)) (m ((c : Thread nD τ).loc main_arg16)) (m ((c : Thread nD τ).loc main_arg18)) (ix1 n) := by
  have e : (V m c main_v7 : S1x4096.Idx → EReal) = shapeCast S1x4096 (Cert.ReferenceIdeal.Read.val_main_v9 (F := Ideal) (m ((c : Thread nD τ).loc main_arg4)) (m ((c : Thread nD τ).loc main_arg6)) (m ((c : Thread nD τ).loc main_arg8)) (m ((c : Thread nD τ).loc main_arg10)) (m ((c : Thread nD τ).loc main_arg12)) (m ((c : Thread nD τ).loc main_arg14)) (m ((c : Thread nD τ).loc main_arg16)) (m ((c : Thread nD τ).loc main_arg18))) shapeCasts_S4096_S1x4096 := by
    dsimp only [V, hostOps0]; after_results; rfl
  rw [e]; exact shapeCast_a_1a_apply _ _ 0 n

/-! ## One LSTM step depends on its data entry by entry -/

theorem newH_congr (f g f' g' : Fin 1024 → EReal) (x x' : EReal) (Wx Wh Wx' Wh' : Fin 4096 → Fin 1024 → EReal) (b b' : Fin 4096 → EReal) (j : Fin 1024)
    (h0 : ∀ q, f q = f' q) (h1 : ∀ q, g q = g' q) (h2 : x = x') (h3 : ∀ n q, Wx n q = Wx' n q) (h4 : ∀ n q, Wh n q = Wh' n q) (h5 : ∀ n, b n = b' n) :
    Cert.Lstm.newH f g x Wx Wh b j = Cert.Lstm.newH f' g' x' Wx' Wh' b' j := by
  rw [funext h0, funext h1, h2, funext fun n => funext (h3 n), funext fun n => funext (h4 n), funext h5]
theorem newC_congr (f g f' g' : Fin 1024 → EReal) (x x' : EReal) (Wx Wh Wx' Wh' : Fin 4096 → Fin 1024 → EReal) (b b' : Fin 4096 → EReal) (j : Fin 1024)
    (h0 : ∀ q, f q = f' q) (h1 : ∀ q, g q = g' q) (h2 : x = x') (h3 : ∀ n q, Wx n q = Wx' n q) (h4 : ∀ n q, Wh n q = Wh' n q) (h5 : ∀ n, b n = b' n) :
    Cert.Lstm.newC f g x Wx Wh b j = Cert.Lstm.newC f' g' x' Wx' Wh' b' j := by
  rw [funext h0, funext h1, h2, funext fun n => funext (h3 n), funext fun n => funext (h4 n), funext h5]

/-! ## The results -/

/-- From arguments that agree, the reference's new hidden array is the kernel's. -/
theorem resultH_eq (m' : (ℓ : Loc Cert.ReferenceIdeal.nD Cert.ReferenceIdeal.τ Cert.ReferenceIdeal.sig) → Buf (Elt Ideal) ℓ) (c : Dev nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) :
    Cert.ReferenceIdeal.Read.val_main_v40 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18))
      = arrH (V m c main_arg0) (V m c main_arg1) (V m c main_arg2) (V m c main_v1) (V m c main_v3) (V m c main_v7) := by
  obtain ⟨a0, a1, a2, a3, a4, a5, a6, a7, a8, a9, a10, a11, a12, a13, a14, a15, a16, a17, a18⟩ := hag
  funext i
  obtain ⟨r, j, rfl⟩ : ∃ (r : Fin 4096) (j : Fin 1024), i = ix2 r j := ⟨i 0, i 1, eq_ix2 i⟩
  refine (Cert.ReferenceIdeal.RefValue.ref_h _ _ _ _ _ _ _ _ _ _ _ _ _ _ _ _ _ _ _ r j).trans ?_
  unfold arrH
  rw [rowOf_ix2, colOf_ix2]
  refine newH_congr _ _ _ _ _ _ _ _ _ _ _ _ j ?_ ?_ ?_ ?_ ?_ ?_
  · intro q; rw [a0, V_main_arg0]
  · intro q; rw [a1, V_main_arg1]
  · rw [a2, V_main_arg2]
  · intro n q; rw [a3, a7, a11, a15]; exact (Wx_apply m c n q).symm
  · intro n q; rw [a5, a9, a13, a17]; exact (Wh_apply m c n q).symm
  · intro n; rw [a4, a6, a8, a10, a12, a14, a16, a18]; exact (B_apply m c n).symm

/-- From arguments that agree, the reference's new cell array is the kernel's. -/
theorem resultC_eq (m' : (ℓ : Loc Cert.ReferenceIdeal.nD Cert.ReferenceIdeal.τ Cert.ReferenceIdeal.sig) → Buf (Elt Ideal) ℓ) (c : Dev nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) :
    Cert.ReferenceIdeal.Read.val_main_v38 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18))
      = arrC (V m c main_arg0) (V m c main_arg1) (V m c main_arg2) (V m c main_v1) (V m c main_v3) (V m c main_v7) := by
  obtain ⟨a0, a1, a2, a3, a4, a5, a6, a7, a8, a9, a10, a11, a12, a13, a14, a15, a16, a17, a18⟩ := hag
  funext i
  obtain ⟨r, j, rfl⟩ : ∃ (r : Fin 4096) (j : Fin 1024), i = ix2 r j := ⟨i 0, i 1, eq_ix2 i⟩
  refine (Cert.ReferenceIdeal.RefValue.ref_c _ _ _ _ _ _ _ _ _ _ _ _ _ _ _ _ _ _ _ r j).trans ?_
  unfold arrC
  rw [rowOf_ix2, colOf_ix2]
  refine newC_congr _ _ _ _ _ _ _ _ _ _ _ _ j ?_ ?_ ?_ ?_ ?_ ?_
  · intro q; rw [a0, V_main_arg0]
  · intro q; rw [a1, V_main_arg1]
  · rw [a2, V_main_arg2]
  · intro n q; rw [a3, a7, a11, a15]; exact (Wx_apply m c n q).symm
  · intro n q; rw [a5, a9, a13, a17]; exact (Wh_apply m c n q).symm
  · intro n; rw [a4, a6, a8, a10, a12, a14, a16, a18]; exact (B_apply m c n).symm

end Cert.KernelIdeal.Bridge

end
-- ==== Proof.lean ====
/-
  One step of an LSTM cell over 4096 batch rows and 1024 hidden units: the tiled kernel against the whole-array reference.

  The kernel fuses the four gates' weight matrices and biases on the host, then runs sixteen grid points of 256 rows
  each; a point contracts its rows with the fused input and hidden weights, adds the bias row, cuts the 4096 columns
  into the input, forget and output gates and the candidate, and stores the new hidden and new cell blocks. The
  reference computes the same pre-activations for all rows at once and writes its gates as `1 / (1 + e^(−x))`.

  * The three frames. The two kernel programs: the host operations write no argument and the pipeline only reads the
    three argument arrays it stages (`Fr.frame`, proved once for any float instance and stated at both). The
    reference: its run with the results dropped.
  * The idealization changed no operation, so there is nothing to preserve.
  * On the extended reals the two programs' results are equal entry by entry: narrowing the activations and weights is
    the identity; a contraction onto a zero accumulator is the plain sum, for a block row as for an array row; the
    kernel's logistic IS `1 / (1 + e^(−x))`; and the sixteen blocks tile the rows. No law that needs finite values is
    used: the precondition is never opened.
-/
import proofs.«108249_j188978561241_1_alg».proof.Defs
import proofs.«108249_j188978561241_1_alg».proof.Proof.Gen.Kernel
import proofs.«108249_j188978561241_1_alg».proof.Proof.Gen.KernelIdeal
import proofs.«108249_j188978561241_1_alg».proof.Proof.Gen.ReferenceIdeal
import proofs.«108249_j188978561241_1_alg».proof.Proof.Gen.Pre_finite_inputs
import proofs.«108249_j188978561241_1_alg».proof.Proof.Gen.ReferenceIdeal.Run
import proofs.«108249_j188978561241_1_alg».proof.Proof.Gen.ReferenceIdeal.Read
import proofs.«108249_j188978561241_1_alg».proof.Proof.RunK
import proofs.«108249_j188978561241_1_alg».proof.Proof.Bridge
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Fr.frame m ρ

/-- The idealized kernel runs and leaves its arguments unchanged. -/
theorem frame_ki : Cert.frame_KernelIdeal := fun m ρ _ => Cert.KernelIdeal.Fr.frame m ρ

/-- The reference runs and leaves its arguments unchanged: its run, the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments both idealized programs run, and end with the same new hidden and new cell
    arrays: each program's entry `(r, j)` is the LSTM step of row `r` at unit `j`. -/
theorem algebraic : Cert.algebraic_KernelIdeal_ReferenceIdeal := by
  intro m ρ m' ρ' _ hagree
  refine ⟨fun c => Cert.KernelIdeal.Val.arrH (Cert.KernelIdeal.Fr.V m c Cert.KernelIdeal.main_arg0) (Cert.KernelIdeal.Fr.V m c Cert.KernelIdeal.main_arg1) (Cert.KernelIdeal.Fr.V m c Cert.KernelIdeal.main_arg2) (Cert.KernelIdeal.Fr.V m c Cert.KernelIdeal.main_v1) (Cert.KernelIdeal.Fr.V m c Cert.KernelIdeal.main_v3) (Cert.KernelIdeal.Fr.V m c Cert.KernelIdeal.main_v7),
    fun c => Cert.KernelIdeal.Val.arrC (Cert.KernelIdeal.Fr.V m c Cert.KernelIdeal.main_arg0) (Cert.KernelIdeal.Fr.V m c Cert.KernelIdeal.main_arg1) (Cert.KernelIdeal.Fr.V m c Cert.KernelIdeal.main_arg2) (Cert.KernelIdeal.Fr.V m c Cert.KernelIdeal.main_v1) (Cert.KernelIdeal.Fr.V m c Cert.KernelIdeal.main_v3) (Cert.KernelIdeal.Fr.V m c Cert.KernelIdeal.main_v7),
    Cert.KernelIdeal.Val.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v40_eq]
    exact Cert.KernelIdeal.Bridge.resultH_eq m m' c (hagree c)
  · rw [Cert.ReferenceIdeal.Read.val_main_v38_eq]
    exact Cert.KernelIdeal.Bridge.resultC_eq m m' c (hagree c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
